-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x16 : Shape := ⟨2, ![128, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : FVec F S128x16 .f32) (main_arg2 : FVec F S16 .f32) (main_arg3 : FVec F S16x2 .f32) (main_arg4 : FVec F S2 .f32) (main_arg5 : IVec S2x3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_v13 main_v16
-- ==== Kernel.lean ====
abbrev S100000x128 : Shape := ⟨2, ![100000, 128]⟩
abbrev S128x16 : Shape := ⟨2, ![128, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x16 : Shape := ⟨2, ![1, 16]⟩
abbrev S1x2 : Shape := ⟨2, ![1, 2]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S100000x2 : Shape := ⟨2, ![100000, 2]⟩
abbrev S10000x2 : Shape := ⟨2, ![10000, 2]⟩
abbrev S3300000x2 : Shape := ⟨2, ![3300000, 2]⟩
abbrev S10000 : Shape := ⟨1, ![10000]⟩
abbrev S10000x1 : Shape := ⟨2, ![10000, 1]⟩

abbrev nBuf : Space → Nat
  | .hbm => 82
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S1x16, .f32⟩
  | .hbm, ⟨48, _⟩ => ⟨S1x2, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S100000x2, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x2, .f32⟩
  | .hbm, ⟨75, _⟩ => ⟨S3300000x2, .f32⟩
  | .hbm, ⟨76, _⟩ => ⟨S3300000x2, .f32⟩
  | .hbm, ⟨77, _⟩ => ⟨S_, .f32⟩
  | .hbm, ⟨78, _⟩ => ⟨S100000x2, .f32⟩
  | .hbm, ⟨79, _⟩ => ⟨S3300000x1, .i32⟩
  | .hbm, ⟨80, _⟩ => ⟨S100000x2, .f32⟩
  | .hbm, ⟨81, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x2, .f32⟩
  | .local _ .vmem, ⟨9, _⟩ => ⟨S10000x2, .f32⟩
  | .local _ .vmem, ⟨10, _⟩ => ⟨S10000x2, .f32⟩
  | .local _ .vmem, ⟨11, _⟩ => ⟨S10000x2, .f32⟩
  | .local _ .vmem, ⟨12, _⟩ => ⟨S10000x2, .f32⟩
  | .local _ .vmem, ⟨13, _⟩ => ⟨S1x2, .f32⟩
  | .local _ .vmem, ⟨14, _⟩ => ⟨S10000x2, .f32⟩
  | .local _ .vmem, ⟨15, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S16_S1x16 : S16.ShapeCasts S1x16
  shapeCasts_S2_S1x2 : S2.ShapeCasts S1x2
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x2_S10000x2_1_0_0_1_n_n_wf : DotDims.WF S10000x16 S16x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2.size a ≤ S16x2.size a
  hwx1_2 : ∀ i : grid1.Coords, EltTy.bits .f32 = 32 ∨ (Rect.block (s := S16x2) S16x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x2.size a ≤ S100000x2.size a
  hwx1_3 : ∀ i : grid1.Coords, EltTy.bits .f32 = 32 ∨ (Rect.block (s := S100000x2) S10000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x2.size a ≤ S100000x2.size a
  hwx2_0 : ∀ i : grid2.Coords, EltTy.bits .f32 = 32 ∨ (Rect.block (s := S100000x2) S10000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S100000x2.size a
  hwx2_2 : ∀ i : grid2.Coords, EltTy.bits .f32 = 32 ∨ (Rect.block (s := S100000x2) S10000x2.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x16 : Shape := ⟨2, ![128, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S128x16, .f32⟩
  | 2 => ⟨S16, .f32⟩
  | 3 => ⟨S16x2, .f32⟩
  | 4 => ⟨S2, .f32⟩
  | 5 => ⟨S2x3200000, .i32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x16, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000, .i32⟩
  | 70 => ⟨S1x3200000, .i32⟩
  | 71 => ⟨S3200000, .i32⟩
  | 72 => ⟨S3300000, .i32⟩
  | 73 => ⟨S1x3200000, .i32⟩
  | 74 => ⟨S3200000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S100000x2, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x2, .f32⟩
  | 119 => ⟨S3300000x1, .f32⟩
  | 120 => ⟨S3300000x2, .f32⟩
  | 121 => ⟨S3300000x2, .f32⟩
  | 122 => ⟨S_, .f32⟩
  | 123 => ⟨S100000x2, .f32⟩
  | 124 => ⟨S3300000x1, .i32⟩
  | 125 => ⟨S100000x2, .f32⟩
  | 126 => ⟨S1x2, .f32⟩
  | 127 => ⟨S100000x2, .f32⟩
  | _ => ⟨S100000x128, .f32⟩

abbrev hbmTy0_1 (i : Nat) : BufTy := match i % 128 with
  | 0 => ⟨S100000x2, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x2, .f32⟩
  | 8 => ⟨S100000x2, .f32⟩
  | 9 => ⟨S100000x2, .f32⟩
  | 10 => ⟨S_, .f32⟩
  | 11 => ⟨S100000, .f32⟩
  | 12 => ⟨S100000x1, .f32⟩
  | 13 => ⟨S100000x1, .f32⟩
  | 14 => ⟨S100000x2, .f32⟩
  | 15 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KernelRun.lean ====
/-
  The idealized kernel's run with its result named.

  The program is three kernel regions among stretches of host operations. Its run is a chain of segments; the contents of
  every buffer at each boundary are a fold from the launch memory (`W0` … `W8` of the frame module), and at the end every
  unscoped buffer holds the last boundary's contents. So every weakly fair execution terminates, nothing faults, the
  result buffer ends at `W8` read at it, and the argument arrays end unchanged: the frame's statement with one more
  buffer read out of the final state.
-/
import proofs.«171294_j37108517437448_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument arrays as launched. -/
theorem run_named : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«171294_j37108517437448_1_alg».proof.Proof.LibRowLayers
import proofs.«171294_j37108517437448_1_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibLogSoftmaxRows.lean ====
/-
  A row-wise log-softmax as each program prints it, read at an entry.

  Both programs shift an `[a, n]` array of logits by its row maxima, exponentiate, sum each row, take the logarithm and
  subtract: entry `(p, j)` of the result is `logSoftmax` of row `p` at `j`. The device reduces along the lanes from an
  accumulator, re-lays the `[a]` result as an `[a, 1]` column and broadcasts it back; the host reduces from an initial
  value, takes the maximum with a splat of that same value once more (which changes nothing: the fold already starts
  there), gives the result a trailing unit axis and broadcasts it back; its sum starts from the zero word, which is the
  extended real `0`. The shifted array and the two per-row terms are named once (`logSoftmax_of_parts`), and each
  program's spelling of them is read into that form.
-/
import proofs.«171294_j37108517437448_1_alg».proof.Proof.LibChebRows

noncomputable section

namespace Cert.ChebRows

open Idealize.ShloMosaic Idealize.ShloMosaic.ValueIdx Cert.RowLayers

variable {a n : ℕ}

/-- If `Mx` holds, all along row `q`, that row's maximum of `L`, and `Sx` the logarithm of the row's sum of
    exponentials of the shifted entries, then `(L − Mx) − Sx` is the log-softmax of `L`'s rows. -/
theorem logSoftmax_of_parts (z : EReal) (L Mx Sx : FVec Ideal ⟨2, ![a, n]⟩ .f32)
    (hMx : ∀ (q : Fin a) (k : Fin n), Mx (ix2 q k) = rowMax z (rowOf L q))
    (hSx : ∀ (q : Fin a) (k : Fin n), Sx (ix2 q k) = Ideal.log (∑ k' : Fin n, Ideal.exp (L (ix2 q k') - rowMax z (rowOf L q))))
    (p : Fin a) (j : Fin n) : subf (subf L Mx) Sx (ix2 p j) = logSoftmax z (rowOf L p) j := by
  show (L (ix2 p j) - Mx (ix2 p j)) - Sx (ix2 p j) = _
  rw [hMx, hSx]
  rfl

/-- The device's spelling. -/
theorem logSoftmax_device_apply (L : FVec Ideal ⟨2, ![a, n]⟩ .f32) (accM acc0 : BitVec 32)
    (hr : (⟨2, ![a, n]⟩ : Shape).Reduces [1] (⟨1, ![a]⟩ : Shape)) (hφ : FKind.Formats .f32)
    (hM : accM = FKind.maximumf.neutral .f32 hφ) (h0 : acc0 = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    subf (subf L (broadcastTo ⟨2, ![a, n]⟩ (shapeCast ⟨2, ![a, 1]⟩ (multiReduction .maximumf [1] ⟨1, ![a]⟩ L accM hr hφ hM) hc) hb))
         (broadcastTo ⟨2, ![a, n]⟩ (log (shapeCast ⟨2, ![a, 1]⟩ (multiReduction .add [1] ⟨1, ![a]⟩
             (exp (subf L (broadcastTo ⟨2, ![a, n]⟩ (shapeCast ⟨2, ![a, 1]⟩ (multiReduction .maximumf [1] ⟨1, ![a]⟩ L accM hr hφ hM) hc) hb)))
             acc0 hr hφ h0) hc)) hb) (ix2 p j)
      = logSoftmax (Ideal.ofBits .f32 accM) (rowOf L p) j := by
  have hMx : ∀ (q : Fin a) (k : Fin n),
      broadcastTo ⟨2, ![a, n]⟩ (shapeCast ⟨2, ![a, 1]⟩ (multiReduction .maximumf [1] ⟨1, ![a]⟩ L accM hr hφ hM) hc) hb (ix2 q k)
        = rowMax (Ideal.ofBits .f32 accM) (rowOf L q) := fun q k =>
    (column_device_apply _ hc hb q k).trans (multiReduction_max_row L accM hr hφ hM q)
  refine logSoftmax_of_parts _ L _ _ hMx (fun q k => ?_) p j
  refine (Cert.ColumnBroadcast.broadcastTo_a1_ab_apply _ hb q k).trans ?_
  show Ideal.log (shapeCast ⟨2, ![a, 1]⟩ _ hc (ix2 q (0 : Fin 1))) = _
  rw [shapeCast_a_a1_apply, multiReduction_add_row]
  refine congrArg Ideal.log (Finset.sum_congr rfl fun k' _ => ?_)
  show Ideal.exp (L (ix2 q k') - _) = _
  rw [hMx]

/-- The host's spelling. -/
theorem logSoftmax_host_apply (L : FVec Ideal ⟨2, ![a, n]⟩ .f32) (wM : BitVec 32)
    (h' : (⟨2, ![a, n]⟩ : Shape).ReducesTo [1] (⟨1, ![a]⟩ : Shape)) (hr : (⟨2, ![a, n]⟩ : Shape).Reduces [1] (⟨1, ![a]⟩ : Shape))
    (hu : 0 < (⟨0, ![]⟩ : Shape).numel)
    (hs : (⟨0, ![]⟩ : Shape).BroadcastsInDim ⟨1, ![a]⟩ (![] : Fin 0 → Fin 1))
    (h1 : (⟨1, ![a]⟩ : Shape).BroadcastsInDim ⟨2, ![a, 1]⟩ ![0]) (h2 : (⟨2, ![a, 1]⟩ : Shape).BroadcastsInDim ⟨2, ![a, n]⟩ ![0, 1])
    (p : Fin a) (j : Fin n) :
    subf (subf L (broadcastInDim ⟨2, ![a, n]⟩ ![0, 1] h2 (broadcastInDim ⟨2, ![a, 1]⟩ ![0] h1
            (maximumf (broadcastInDim ⟨1, ![a]⟩ ![] hs (constant (F := Ideal) ⟨0, ![]⟩ .f32 wM))
              (Host.reduce FloatOps.maximumf L (constant (F := Ideal) ⟨0, ![]⟩ .f32 wM) h' hu)))))
         (broadcastInDim ⟨2, ![a, n]⟩ ![0, 1] h2 (Host.log (broadcastInDim ⟨2, ![a, 1]⟩ ![0] h1
            (Host.reduceAdd (Host.exp (subf L (broadcastInDim ⟨2, ![a, n]⟩ ![0, 1] h2 (broadcastInDim ⟨2, ![a, 1]⟩ ![0] h1
                (maximumf (broadcastInDim ⟨1, ![a]⟩ ![] hs (constant (F := Ideal) ⟨0, ![]⟩ .f32 wM))
                  (Host.reduce FloatOps.maximumf L (constant (F := Ideal) ⟨0, ![]⟩ .f32 wM) h' hu))))))
              (constant (F := Ideal) ⟨0, ![]⟩ .f32 0x00000000#32) h' hu)))) (ix2 p j)
      = logSoftmax (Ideal.ofBits .f32 wM) (rowOf L p) j := by
  have hMx : ∀ (q : Fin a) (k : Fin n),
      broadcastInDim ⟨2, ![a, n]⟩ ![0, 1] h2 (broadcastInDim ⟨2, ![a, 1]⟩ ![0] h1
            (maximumf (broadcastInDim ⟨1, ![a]⟩ ![] hs (constant (F := Ideal) ⟨0, ![]⟩ .f32 wM))
              (Host.reduce FloatOps.maximumf L (constant (F := Ideal) ⟨0, ![]⟩ .f32 wM) h' hu))) (ix2 q k)
        = rowMax (Ideal.ofBits .f32 wM) (rowOf L q) := fun q k => by
    rw [lanes_host_apply, column_host_apply]
    show max (broadcastInDim ⟨1, ![a]⟩ ![] hs (constant (F := Ideal) ⟨0, ![]⟩ .f32 wM) (ix1 q))
        (Host.reduce FloatOps.maximumf L (constant (F := Ideal) ⟨0, ![]⟩ .f32 wM) h' hu (ix1 q)) = _
    rw [hostReduce_max_row L _ h' hr hu q,
      broadcastInDim_apply ![] hs (constant (F := Ideal) ⟨0, ![]⟩ .f32 wM) (ix1 q) ix0 (fun ax => ax.elim0)]
    exact max_rowMax _ _
  refine logSoftmax_of_parts _ L _ _ hMx (fun q k => ?_) p j
  rw [lanes_host_apply]
  refine (congrArg Ideal.log (column_host_apply _ h1 q (0 : Fin 1))).trans ?_
  rw [hostReduceAdd_row _ _ h' hr hu q]
  show Ideal.log (Ideal.ofBits .f32 0x00000000#32 + _) = _
  rw [Ideal.ofBits_zero_f32, zero_add]
  refine congrArg Ideal.log (Finset.sum_congr rfl fun k' _ => ?_)
  show Ideal.exp (L (ix2 q k') - _) = _
  rw [hMx]

end Cert.ChebRows

end
-- ==== Proof.KernelBlocks.lean ====
/-
  What each of the three kernel bodies leaves in its output block, read at an entry.

  Every body loads whole blocks and stores one whole block, so the block it leaves is its arithmetic applied to the
  loaded blocks. Over the extended reals a change of float format is the identity, a matrix product into a zero
  accumulator is a sum of products, and a reshape to the same shape is the identity. Row `p` of a block of 10000 rows:
    * first body:  entry `q` is `∑ k, x[p, k] · w[k, q]`;
    * second body: entry `q` is `∑ k, max (a[p, k] + b[0, k]) 0 · w[k, q]`;
    * third body:  entry `q` is the log-softmax of the row `k ↦ a[p, k] + b[0, k]` at `q`.
-/
import proofs.«171294_j37108517437448_1_alg».proof.Proof.Gen.KernelIdeal.Frame
import proofs.«171294_j37108517437448_1_alg».proof.Proof.LibLogSoftmaxRows
import Idealize.ShloMosaic.Lib.Pipeline.Value
import Idealize.ShloMosaic.Lib.ValueIdx

noncomputable section

namespace Cert.KernelIdeal.Blocks

open Idealize.ShloMosaic Idealize.ShloMosaic.ValueIdx Cert.KernelIdeal Cert.KernelIdeal.Gen Cert.RowLayers Cert.ChebRows

/-- A load or store at offsets `[0, 0]` is at offset 0 on every axis. -/
theorem hz : (![0, 0] : Fin 2 → Nat) = fun _ => 0 := funext fun a => by fin_cases a <;> rfl

/-- The first body's product: rows of the left block times columns of the right one. -/
theorem rtcK1 : RowsTimesCols dot_S10000x128_S128x16_S10000x16_1_0_0_1_n_n where
  rank := rfl
  size := rfl
  lhs0 := fun _ _ => rfl
  lhs1 := fun j q => dot_S10000x128_S128x16_S10000x16_1_0_0_1_n_n.lhsIdx_val_of_single (cl := 1) rfl j q
  rhs0 := fun j q => dot_S10000x128_S128x16_S10000x16_1_0_0_1_n_n.rhsIdx_val_of_single (cr := 0) rfl j q
  rhs1 := fun _ _ => rfl

/-- The second body's product, likewise. -/
theorem rtcK2 : RowsTimesCols dot_S10000x16_S16x2_S10000x2_1_0_0_1_n_n where
  rank := rfl
  size := rfl
  lhs0 := fun _ _ => rfl
  lhs1 := fun j q => dot_S10000x16_S16x2_S10000x2_1_0_0_1_n_n.lhsIdx_val_of_single (cl := 1) rfl j q
  rhs0 := fun j q => dot_S10000x16_S16x2_S10000x2_1_0_0_1_n_n.rhsIdx_val_of_single (cr := 0) rfl j q
  rhs1 := fun _ _ => rfl

/-- The first body: `x · w` on the block. -/
theorem out0_2_apply (x0 : Vec Ideal S10000x128 .f32) (x1 : Vec Ideal S128x16 .f32) (p : Fin 10000) (q : Fin 16) :
    out0_2 (F := Ideal) x0 x1 (ix2 p q) = ∑ k : Fin 128, x0 (ix2 p k) * x1 (ix2 k q) := by
  unfold out0_2
  rw [View.canon_unit_zero hz]
  simp only [View.ld_unit_zero (S := S10000x128) hz, View.ld_unit_zero (S := S128x16) hz]
  exact congrFun (rowOf_matmul_zero (φ₁ := .bf16) (φ₂ := .bf16) rtcK1 none x0 x1 p) q

/-- The second body: `max (a + b) 0 · w` on the block, the bias row `b` broadcast down the rows. -/
theorem out1_3_apply (x0 : Vec Ideal S10000x16 .f32) (x1 : Vec Ideal S1x16 .f32) (x2 : Vec Ideal S16x2 .f32) (p : Fin 10000) (q : Fin 2) :
    out1_3 (F := Ideal) x0 x1 x2 (ix2 p q)
      = ∑ k : Fin 16, max (x0 (ix2 p k) + x1 (ix2 (0 : Fin 1) k)) (Ideal.ofBits .f32 0x00000000#32) * x2 (ix2 k q) := by
  unfold out1_3
  rw [View.canon_unit_zero hz]
  simp only [View.ld_unit_zero (S := S10000x16) hz, View.ld_unit_zero (S := S1x16) hz, View.ld_unit_zero (S := S16x2) hz]
  unfold k1_pay1
  rw [shapeCast_self, shapeCast_self]
  refine (congrFun (rowOf_matmul_zero (φ₁ := .bf16) (φ₂ := .bf16) rtcK2 none _ x2 p) q).trans ?_
  refine Finset.sum_congr rfl fun k _ => ?_
  refine congrArg (· * x2 (ix2 k q)) ?_
  show rowOf (maximumf (addf x0 (broadcastTo S10000x16 x1 broadcasts_S1x16_S10000x16)) (broadcast S10000x16 (Scalar.ofBits (F := Ideal) .f32 0x00000000#32))) p k = _
  rw [rowOf_maximumf_splat, rowOf_addf, rowOf_broadcastTo]
  rfl

/-- The third body: the log-softmax of every row of `a + b` on the block. -/
theorem out2_2_apply (x0 : Vec Ideal S10000x2 .f32) (x1 : Vec Ideal S1x2 .f32) (p : Fin 10000) (q : Fin 2) :
    out2_2 (F := Ideal) x0 x1 (ix2 p q)
      = logSoftmax (Ideal.ofBits .f32 0xFF800000#32) (fun k => x0 (ix2 p k) + x1 (ix2 (0 : Fin 1) k)) q := by
  unfold out2_2
  rw [View.canon_unit_zero hz]
  simp only [View.ld_unit_zero (S := S10000x2) hz, View.ld_unit_zero (S := S1x2) hz]
  unfold k2_pay1
  rw [shapeCast_self, shapeCast_self]
  refine (logSoftmax_device_apply (addf x0 (broadcastTo S10000x2 x1 broadcasts_S1x2_S10000x2)) 0xFF800000#32 0x00000000#32
    reduces_S10000x2_S10000 (.inl rfl) rfl rfl shapeCasts_S10000_S10000x1 broadcasts_S10000x1_S10000x2 p q).trans ?_
  refine congrArg (fun f => logSoftmax (Ideal.ofBits .f32 0xFF800000#32) f q) ?_
  rw [rowOf_addf, rowOf_broadcastTo]
  rfl

end Cert.KernelIdeal.Blocks

end
-- ==== Proof.Layers.lean ====
/-
  The two-layer graph convolution network, stage by stage, as functions of whole arrays over the extended reals.

  The graph enters through one integer array `e` of two rows, the sources and the targets of the edges. Every node gets a
  self-loop (`srcIds`, `dstIds`: the edge lists followed by 0 … N−1); a node's degree is the number of edges that end in it
  (`degree`: a scatter-add of ones), its weight the inverse square root of the degree where that is positive and 0
  elsewhere (`degInvSqrt`), and an edge's coefficient the product of the weights of its two ends (`normCol`, kept as a
  column). One propagation step (`propagate16`, `propagate2`) gathers the rows of a node array at the edges' sources, scales
  each by its edge's coefficient and adds it into the row of the edge's target. Between the propagation steps the network
  is dense and acts on every node's row alone: `lin1` multiplies by the first weight matrix; `hidden` adds the first bias
  and rectifies at 0 (`rect`), then multiplies by the second weight matrix; `logits` adds the second bias and `head` takes the
  log-softmax of every row. The network is `gcn`.

  The dense stages are read here at an entry (`lin1_apply`, `hidden_apply`, `head_logits_apply`): a row of sums of
  products, and the log-softmax of a row. The sparse stages are never opened: whatever a scatter-add or a gather is, both
  programs apply the same ones to the same arrays.
-/
import proofs.«171294_j37108517437448_1_alg».proof.ReferenceIdeal
import proofs.«171294_j37108517437448_1_alg».proof.Proof.Gen.ReferenceIdeal
import proofs.«171294_j37108517437448_1_alg».proof.Proof.LibLogSoftmaxRows
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx Cert.ReferenceIdeal Cert.ReferenceIdeal.Gen Cert.RowLayers Cert.ChebRows

/-! ## The graph's arrays -/

section Graph
variable (e : IVec S2x3200000 32)

/-- The edges' sources, then every node once (the self-loops). -/
def srcIds : IVec S3300000 32 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The edges' targets, then every node once. -/
def dstIds : IVec S3300000 32 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- Node numbers as a column of gather positions: a negative number counts from the end. -/
def wrapCol (v : IVec S3300000 32) : IVec S3300000x1 32 :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- The targets as a column of scatter positions. -/
def dstCol : IVec S3300000x1 32 :=
  broadcastInDim S3300000x1 ![0] bcast_S3300000_S3300000x1_0 (dstIds e)

/-- A node's degree: one for every edge that ends in it. -/
def degree : FVec Ideal S100000 .f32 :=
  Host.scatterAdd scatter_S100000_S3300000x1_S3300000_n_0_0_1 (broadcastInDim S100000 ![] bcast_S_S100000 (constant S_ .f32 0x00000000#32)) (dstCol e) (broadcastInDim S3300000 ![] bcast_S_S3300000 (constant S_ .f32 0x3F800000#32))

/-- A node's weight: the inverse square root of its degree where the degree is positive, 0 elsewhere. -/
def degInvSqrt : FVec Ideal S100000 .f32 :=
  select (cmpf (F := Ideal) .ogt (degree e) (broadcastInDim S100000 ![] bcast_S_S100000 (constant S_ .f32 0x00000000#32))) (Host.rsqrt (degree e)) (broadcastInDim S100000 ![] bcast_S_S100000 (id (constant S_ .f32 0x00000000#32)))

/-- An edge's coefficient: the weight of its source times the weight of its target. -/
def normVec : FVec Ideal S3300000 .f32 :=
  mulf (Host.gather gather_S100000_S3300000x1_S3300000_n_0_n_n_0_1_1 (degInvSqrt e) (wrapCol (srcIds e))) (Host.gather gather_S100000_S3300000x1_S3300000_n_0_n_n_0_1_1 (degInvSqrt e) (wrapCol (dstIds e)))

/-- The coefficients as a column. -/
def normCol : FVec Ideal S3300000x1 .f32 :=
  broadcastInDim S3300000x1 ![0] bcast_S3300000_S3300000x1_0 (normVec e)

/-- One propagation step on 16 features: rows gathered at the sources, scaled edge by edge, added at the targets. -/
def propagate16 (h : FVec Ideal S100000x16 .f32) : FVec Ideal S100000x16 .f32 :=
  Host.scatterAdd scatter_S100000x16_S3300000x1_S3300000x16_1_0_0_1 (broadcastInDim S100000x16 ![] bcast_S_S100000x16 (constant S_ .f32 0x00000000#32)) (dstCol e) (mulf (Host.gather gather_S100000x16_S3300000x1_S3300000x16_1_0_n_n_0_1_116 h (wrapCol (srcIds e))) (broadcastInDim S3300000x16 ![0, 1] bcast_S3300000x1_S3300000x16_0_1 (normCol e)))

/-- The same step on 2 features. -/
def propagate2 (h : FVec Ideal S100000x2 .f32) : FVec Ideal S100000x2 .f32 :=
  Host.scatterAdd scatter_S100000x2_S3300000x1_S3300000x2_1_0_0_1 (broadcastInDim S100000x2 ![] bcast_S_S100000x2 (constant S_ .f32 0x00000000#32)) (dstCol e) (mulf (Host.gather gather_S100000x2_S3300000x1_S3300000x2_1_0_n_n_0_1_12 h (wrapCol (srcIds e))) (broadcastInDim S3300000x2 ![0, 1] bcast_S3300000x1_S3300000x2_0_1 (normCol e)))

end Graph

/-! ## The dense stages -/

/-- The first linear map: `x · w`. -/
def lin1 (x : FVec Ideal S100000x128 .f32) (w : FVec Ideal S128x16 .f32) :
    FVec Ideal S100000x16 .f32 :=
  Host.dotGeneral dot_S100000x128_S128x16_S100000x16_1_0_0_1_n_n none x w

/-- Bias and rectifier: `max (a + b) 0`, the bias added to every row. -/
def rect (a : FVec Ideal S100000x16 .f32) (b : FVec Ideal S16 .f32) : FVec Ideal S100000x16 .f32 :=
  maximumf (addf a (broadcastInDim S100000x16 ![0, 1] bcast_S1x16_S100000x16_0_1 (broadcastInDim S1x16 ![1] bcast_S16_S1x16_1 b))) (broadcastInDim S100000x16 ![] bcast_S_S100000x16 (constant S_ .f32 0x00000000#32))

/-- Bias, rectifier, second linear map: `max (a + b) 0 · w`. -/
def hidden (a : FVec Ideal S100000x16 .f32) (b : FVec Ideal S16 .f32)
    (w : FVec Ideal S16x2 .f32) : FVec Ideal S100000x2 .f32 :=
  Host.dotGeneral dot_S100000x16_S16x2_S100000x2_1_0_0_1_n_n none (rect a b) w

/-- The second bias added to every row. -/
def logits (a : FVec Ideal S100000x2 .f32) (b : FVec Ideal S2 .f32) :
    FVec Ideal S100000x2 .f32 :=
  addf a (broadcastInDim S100000x2 ![0, 1] bcast_S1x2_S100000x2_0_1 (broadcastInDim S1x2 ![1] bcast_S2_S1x2_1 b))

/-- Every row's largest entry, spread back over the row. -/
def rowShift (L : FVec Ideal S100000x2 .f32) : FVec Ideal S100000x2 .f32 :=
  broadcastInDim S100000x2 ![0, 1] bcast_S100000x1_S100000x2_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x2_S100000_d1 h_S_)))

/-- The log-softmax of every row. -/
def head (L : FVec Ideal S100000x2 .f32) : FVec Ideal S100000x2 .f32 :=
  subf (subf L (rowShift L)) (broadcastInDim S100000x2 ![0, 1] bcast_S100000x1_S100000x2_0_1 (Host.log (broadcastInDim S100000x1 ![0] bcast_S100000_S100000x1_0 (Host.reduceAdd (Host.exp (subf L (rowShift L))) (constant S_ .f32 0x00000000#32) reducesTo_S100000x2_S100000_d1 h_S_))))

/-- The network. -/
def gcn (x : FVec Ideal S100000x128 .f32) (w1 : FVec Ideal S128x16 .f32)
    (b1 : FVec Ideal S16 .f32) (w2 : FVec Ideal S16x2 .f32)
    (b2 : FVec Ideal S2 .f32) (e : IVec S2x3200000 32) :
    FVec Ideal S100000x2 .f32 :=
  head (logits (propagate2 e (hidden (propagate16 e (lin1 x w1)) b1 w2)) b2)

/-! ## The dense stages at an entry -/

/-- The first product's dimension numbers: rows of `x` times columns of `w`. -/
theorem rtc1 : RowsTimesCols dot_S100000x128_S128x16_S100000x16_1_0_0_1_n_n where
  rank := rfl
  size := rfl
  lhs0 := fun _ _ => rfl
  lhs1 := fun j q => dot_S100000x128_S128x16_S100000x16_1_0_0_1_n_n.lhsIdx_val_of_single (cl := 1) rfl j q
  rhs0 := fun j q => dot_S100000x128_S128x16_S100000x16_1_0_0_1_n_n.rhsIdx_val_of_single (cr := 0) rfl j q
  rhs1 := fun _ _ => rfl

/-- The second product's dimension numbers, likewise. -/
theorem rtc2 : RowsTimesCols dot_S100000x16_S16x2_S100000x2_1_0_0_1_n_n where
  rank := rfl
  size := rfl
  lhs0 := fun _ _ => rfl
  lhs1 := fun j q => dot_S100000x16_S16x2_S100000x2_1_0_0_1_n_n.lhsIdx_val_of_single (cl := 1) rfl j q
  rhs0 := fun j q => dot_S100000x16_S16x2_S100000x2_1_0_0_1_n_n.rhsIdx_val_of_single (cr := 0) rfl j q
  rhs1 := fun _ _ => rfl

/-- Entry `(p, q)` of `x · w`. -/
theorem lin1_apply (x : FVec Ideal S100000x128 .f32) (w : FVec Ideal S128x16 .f32)
    (p : Fin 100000) (q : Fin 16) : lin1 x w (ix2 p q) = ∑ k : Fin 128, x (ix2 p k) * w (ix2 k q) :=
  congrFun (rowOf_dotGeneral (φ₁ := .f32) (φ₂ := .f32) rtc1 none x w p) q

/-- Entry `(p, q)` of `max (a + b) 0 · w`. -/
theorem hidden_apply (a : FVec Ideal S100000x16 .f32) (b : FVec Ideal S16 .f32)
    (w : FVec Ideal S16x2 .f32) (p : Fin 100000) (q : Fin 2) :
    hidden a b w (ix2 p q) = ∑ k : Fin 16, max (a (ix2 p k) + b (ix1 k)) (Ideal.ofBits .f32 0x00000000#32) * w (ix2 k q) := by
  refine (congrFun (rowOf_dotGeneral (φ₁ := .f32) (φ₂ := .f32) rtc2 none _ w p) q).trans ?_
  refine Finset.sum_congr rfl fun k _ => ?_
  refine congrArg (· * w (ix2 k q)) ?_
  show rowOf (maximumf (addf a (broadcastInDim S100000x16 ![0, 1] bcast_S1x16_S100000x16_0_1 (broadcastInDim S1x16 ![1] bcast_S16_S1x16_1 b))) (broadcastInDim S100000x16 ![] bcast_S_S100000x16 (constant (F := Ideal) S_ .f32 0x00000000#32))) p k = _
  rw [rowOf_maximumf_const, rowOf_addf, rowOf_broadcastInDim_vec]
  rfl

/-- Entry `(p, q)` of the log-softmax of the rows of `a + b`. -/
theorem head_logits_apply (a : FVec Ideal S100000x2 .f32) (b : FVec Ideal S2 .f32)
    (p : Fin 100000) (q : Fin 2) :
    head (logits a b) (ix2 p q) = logSoftmax (Ideal.ofBits .f32 0xFF800000#32) (fun k => a (ix2 p k) + b (ix1 k)) q := by
  refine (logSoftmax_host_apply (logits a b) 0xFF800000#32 reducesTo_S100000x2_S100000_d1 (by decide : (⟨2, ![100000, 2]⟩ : Shape).Reduces [1] (⟨1, ![100000]⟩ : Shape)) h_S_
    bcast_S_S100000 bcast_S100000_S100000x1_0 bcast_S100000x1_S100000x2_0_1 p q).trans ?_
  refine congrArg (fun f => logSoftmax (Ideal.ofBits .f32 0xFF800000#32) f q) ?_
  show rowOf (addf a _) p = _
  rw [rowOf_addf, rowOf_broadcastInDim_vec]
  rfl

end Cert.Gcn

end
-- ==== Proof.KernelArrays.lean ====
/-
  From blocks to arrays: what each region leaves in its output array, as one function of the arrays it was entered with.

  Each region runs its body at ten grid points. Point `t` reads rows `10000·t … 10000·t + 9999` of the region's row-tiled
  input, reads the small operands whole, and writes rows `10000·t …` of the output. The body's output at a place of the
  block is the dense stage (`Cert.Gcn.lin1`, `hidden`, `head ∘ logits`) of the whole arrays at the same place of the whole
  output, because those stages act on every row alone. The ten blocks tile the output array, so after the region the
  array IS the dense stage of the arrays the region found.
-/
import proofs.«171294_j37108517437448_1_alg».proof.Proof.Gen.KernelIdeal.Frame
import proofs.«171294_j37108517437448_1_alg».proof.Proof.KernelBlocks
import proofs.«171294_j37108517437448_1_alg».proof.Proof.Layers
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Blocks

/-! ## Region 0 -/

section Region0
variable (V : (c : Dev nD) → (b : Ref sig .tc) → Buf (Elt Ideal) ((c : Thread nD τ).loc b))

/-- The printed index maps over the grid: block `t` of the row-tiled arrays starts at row `10000 · t`; the small
    operands are whole at every point. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- On one block: if the left block is rows `10000 · tv …` of `X` and the right block is `W`, the body's output at `j` is
    `X · W` at the same place of the whole array. -/
theorem block0_eq (X : FVec Ideal S100000x128 .f32) (W : FVec Ideal S128x16 .f32)
    (x0 : Vec Ideal S10000x128 .f32) (x1 : Vec Ideal S128x16 .f32) (tv : ℕ)
    (h0 : ∀ (y : S10000x128.Idx) (z : S100000x128.Idx), (z 0).val = tv * 10000 + (y 0).val → (z 1).val = (y 1).val → x0 y = X z)
    (h1 : ∀ y : S128x16.Idx, x1 y = W y)
    (j : S10000x16.Idx) (i : S100000x16.Idx) (hi0 : (i 0).val = tv * 10000 + (j 0).val) (hi1 : (i 1).val = (j 1).val) :
    out0_2 (F := Ideal) x0 x1 j = Cert.Gcn.lin1 X W i := by
  obtain ⟨p, q, rfl⟩ : ∃ (p : Fin 10000) (q : Fin 16), j = ix2 p q := ⟨j 0, j 1, eq_ix2 j⟩
  obtain ⟨r, q', rfl⟩ : ∃ (r : Fin 100000) (q' : Fin 16), i = ix2 r q' := ⟨i 0, i 1, eq_ix2 i⟩
  have hq : q' = q := Fin.ext hi1
  subst hq
  rw [out0_2_apply, Cert.Gcn.lin1_apply]
  exact Finset.sum_congr rfl fun k _ => by rw [h0 (ix2 p k) (ix2 r k) hi0 rfl, h1 (ix2 k q')]

/-- What point `t` writes back is block `t` of the product of the first two arrays the region was entered with. -/
theorem flushed0 (c : Dev nD) (t : Fin cfg0.N) :
    (dat0 (F := Ideal) V c).flushed 2 t = ((cfg0.win 2).blk t).view.read (Elt Ideal) (Cert.Gcn.lin1 (V c main_arg0) (V c main_arg1)) := by
  show (cfg0.win 2).cut (grid0.coords t) ((dat0 V c).after 2 t) = _
  rw [after0_2]
  obtain ⟨e0, e1, e2, e3, e4, e5⟩ := idx_facts0 t
  funext j
  show out0_2 (F := Ideal) (iblk0 V c 0 t) (iblk0 V c 1 t) j = (Cert.Gcn.lin1 (V c main_arg0) (V c main_arg1)) (((cfg0.win 2).blk t).view.emb j)
  refine block0_eq (V c main_arg0) (V c main_arg1) (iblk0 V c 0 t) (iblk0 V c 1 t) t.val ?_ ?_ j _ ?_ ?_
  · intro y z hz0 hz1
    show V c main_arg0 (((cfg0.win 0).blk t).view.emb y) = V c main_arg0 z
    refine congrArg _ (funext fun a => Fin.ext ?_)
    match a with
    | ⟨0, _⟩ => show win0_0.index t (0 : Fin 2) * 10000 + 1 * (y 0).val = (z 0).val; omega
    | ⟨1, _⟩ => show win0_0.index t (1 : Fin 2) * 128 + 1 * (y 1).val = (z 1).val; omega
  · intro y
    show V c main_arg1 (((cfg0.win 1).blk t).view.emb y) = V c main_arg1 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 16 + 1 * (y 1).val = (y 1).val; omega
  · show win0_2.index t (0 : Fin 2) * 10000 + 1 * (j 0).val = t.val * 10000 + (j 0).val; omega
  · show win0_2.index t (1 : Fin 2) * 16 + 1 * (j 1).val = (j 1).val; omega

/-- An index of the output array is in point `t`'s block iff each coordinate is in the block's range. -/
theorem mem_blk0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v33).slice (win0_2.rect t)).set ↔ _
  rw [View.set_slice_whole, Rect.mem_set_unit]
  exact Iff.rfl

/-- The ten blocks of 10000 rows tile the output array: row `r` is in the block of point `r / 10000`. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 10 := N_0
  have ht : (i 0).val / 10000 < cfg0.N := by show (i 0).val / 10000 < grid0.N; omega
  obtain ⟨e0, e1, e2, e3, e4, e5⟩ := idx_facts0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 16 ≤ (i 1).val ∧ (i 1).val < win0_2.index ⟨(i 0).val / 10000, ht⟩ (1 : Fin 2) * 16 + 16
    rw [e5]
    omega

/-- The output array after the region: the product of the first two arrays the region was entered with. -/
theorem arr0 (c : Dev nD) : (dat0 (F := Ideal) V c).arrAt 2 cfg0.N = Cert.Gcn.lin1 (V c main_arg0) (V c main_arg1) :=
  (dat0 (F := Ideal) V c).arrAt_eq_of_cover 2 (Cert.Gcn.lin1 (V c main_arg0) (V c main_arg1)) (fun t _ => flushed0 V c t) cover0

end Region0

/-! ## Region 1 -/

section Region1
variable (V : (c : Dev nD) → (b : Ref sig .tc) → Buf (Elt Ideal) ((c : Thread nD τ).loc b))

/-- The printed index maps over the grid: block `t` of the row-tiled arrays starts at row `10000 · t`; the small
    operands are whole at every point. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- On one block: if the first block is rows `10000 · tv …` of `A`, the one-row block is the vector `bv` and the third
    block is `W`, the body's output at `j` is `max (A + bv) 0 · W` at the same place of the whole array. -/
theorem block1_eq (A : FVec Ideal S100000x16 .f32) (bv : FVec Ideal S16 .f32) (W : FVec Ideal S16x2 .f32)
    (x0 : Vec Ideal S10000x16 .f32) (x1 : Vec Ideal S1x16 .f32) (x2 : Vec Ideal S16x2 .f32) (tv : ℕ)
    (h0 : ∀ (y : S10000x16.Idx) (z : S100000x16.Idx), (z 0).val = tv * 10000 + (y 0).val → (z 1).val = (y 1).val → x0 y = A z)
    (h1 : ∀ y : S1x16.Idx, x1 y = bv (ix1 (y 1)))
    (h2 : ∀ y : S16x2.Idx, x2 y = W y)
    (j : S10000x2.Idx) (i : S100000x2.Idx) (hi0 : (i 0).val = tv * 10000 + (j 0).val) (hi1 : (i 1).val = (j 1).val) :
    out1_3 (F := Ideal) x0 x1 x2 j = Cert.Gcn.hidden A bv W i := by
  obtain ⟨p, q, rfl⟩ : ∃ (p : Fin 10000) (q : Fin 2), j = ix2 p q := ⟨j 0, j 1, eq_ix2 j⟩
  obtain ⟨r, q', rfl⟩ : ∃ (r : Fin 100000) (q' : Fin 2), i = ix2 r q' := ⟨i 0, i 1, eq_ix2 i⟩
  have hq : q' = q := Fin.ext hi1
  subst hq
  rw [out1_3_apply, Cert.Gcn.hidden_apply]
  exact Finset.sum_congr rfl fun k _ => by rw [h0 (ix2 p k) (ix2 r k) hi0 rfl, h1 (ix2 (0 : Fin 1) k), h2 (ix2 k q')]

/-- What point `t` writes back is block `t` of bias, rectifier and second product of the arrays the region was entered with. -/
theorem flushed1 (c : Dev nD) (bv : FVec Ideal S16 .f32) (hb : ∀ k : Fin 16, V c main_v31 (ix2 (0 : Fin 1) k) = bv (ix1 k)) (t : Fin cfg1.N) :
    (dat1 (F := Ideal) V c).flushed 3 t = ((cfg1.win 3).blk t).view.read (Elt Ideal) (Cert.Gcn.hidden (V c main_v45) bv (V c main_arg3)) := by
  show (cfg1.win 3).cut (grid1.coords t) ((dat1 V c).after 3 t) = _
  rw [after1_3]
  obtain ⟨e0, e1, e2, e3, e4, e5, e6, e7⟩ := idx_facts1 t
  funext j
  show out1_3 (F := Ideal) (iblk1 V c 0 t) (iblk1 V c 1 t) (iblk1 V c 2 t) j = (Cert.Gcn.hidden (V c main_v45) bv (V c main_arg3)) (((cfg1.win 3).blk t).view.emb j)
  refine block1_eq (V c main_v45) bv (V c main_arg3) (iblk1 V c 0 t) (iblk1 V c 1 t) (iblk1 V c 2 t) t.val ?_ ?_ ?_ j _ ?_ ?_
  · intro y z hz0 hz1
    show V c main_v45 (((cfg1.win 0).blk t).view.emb y) = V c main_v45 z
    refine congrArg _ (funext fun a => Fin.ext ?_)
    match a with
    | ⟨0, _⟩ => show win1_0.index t (0 : Fin 2) * 10000 + 1 * (y 0).val = (z 0).val; omega
    | ⟨1, _⟩ => show win1_0.index t (1 : Fin 2) * 16 + 1 * (y 1).val = (z 1).val; omega
  · intro y
    show V c main_v31 (((cfg1.win 1).blk t).view.emb y) = bv (ix1 (y 1))
    have hy0 : (y 0).val < 1 := (y 0).isLt
    refine (congrArg (V c main_v31) (funext fun a => Fin.ext ?_)).trans (hb (y 1))
    match a with
    | ⟨0, _⟩ => show win1_1.index t (0 : Fin 2) * 1 + 1 * (y 0).val = 0; omega
    | ⟨1, _⟩ => show win1_1.index t (1 : Fin 2) * 16 + 1 * (y 1).val = (y 1).val; omega
  · intro y
    show V c main_arg3 (((cfg1.win 2).blk t).view.emb y) = V c main_arg3 y
    refine congrArg _ (funext fun a => Fin.ext ?_)
    match a with
    | ⟨0, _⟩ => show win1_2.index t (0 : Fin 2) * 16 + 1 * (y 0).val = (y 0).val; omega
    | ⟨1, _⟩ => show win1_2.index t (1 : Fin 2) * 2 + 1 * (y 1).val = (y 1).val; omega
  · show win1_3.index t (0 : Fin 2) * 10000 + 1 * (j 0).val = t.val * 10000 + (j 0).val; omega
  · show win1_3.index t (1 : Fin 2) * 2 + 1 * (j 1).val = (j 1).val; omega

/-- An index of the output array is in point `t`'s block iff each coordinate is in the block's range. -/
theorem mem_blk1 (t : Fin cfg1.N) (i : S100000x2.Idx) :
    i ∈ ((cfg1.win 3).blk t).view.set ↔ ∀ a : Fin 2, win1_3.index t a * S10000x2.size a ≤ (i a).val ∧ (i a).val < win1_3.index t a * S10000x2.size a + S10000x2.size a := by
  show i ∈ ((View.whole main_v46).slice (win1_3.rect t)).set ↔ _
  rw [View.set_slice_whole, Rect.mem_set_unit]
  exact Iff.rfl

/-- The ten blocks of 10000 rows tile the output array: row `r` is in the block of point `r / 10000`. -/
theorem cover1 (i : S100000x2.Idx) : ∃ t : Fin cfg1.N, (cfg1.win 3).flush t = true ∧ i ∈ ((cfg1.win 3).blk t).view.set := by
  have hi0 : (i 0).val < 100000 := (i 0).isLt
  have hi1 : (i 1).val < 2 := (i 1).isLt
  have hN : grid1.N = 10 := N_1
  have ht : (i 0).val / 10000 < cfg1.N := by show (i 0).val / 10000 < grid1.N; omega
  obtain ⟨e0, e1, e2, e3, e4, e5, e6, e7⟩ := idx_facts1 ⟨(i 0).val / 10000, ht⟩
  refine ⟨⟨(i 0).val / 10000, ht⟩, flush1_3 _, ?_⟩
  rw [mem_blk1]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e6]
    show (i 0).val / 10000 * 10000 ≤ (i 0).val ∧ (i 0).val < (i 0).val / 10000 * 10000 + 10000
    omega
  | ⟨1, _⟩ =>
    show win1_3.index ⟨(i 0).val / 10000, ht⟩ (1 : Fin 2) * 2 ≤ (i 1).val ∧ (i 1).val < win1_3.index ⟨(i 0).val / 10000, ht⟩ (1 : Fin 2) * 2 + 2
    rw [e7]
    omega

/-- The output array after the region: bias, rectifier and second product of the arrays the region was entered with. -/
theorem arr1 (c : Dev nD) (bv : FVec Ideal S16 .f32) (hb : ∀ k : Fin 16, V c main_v31 (ix2 (0 : Fin 1) k) = bv (ix1 k)) : (dat1 (F := Ideal) V c).arrAt 3 cfg1.N = Cert.Gcn.hidden (V c main_v45) bv (V c main_arg3) :=
  (dat1 (F := Ideal) V c).arrAt_eq_of_cover 3 (Cert.Gcn.hidden (V c main_v45) bv (V c main_arg3)) (fun t _ => flushed1 V c bv hb t) cover1

end Region1

/-! ## Region 2 -/

section Region2
variable (V : (c : Dev nD) → (b : Ref sig .tc) → Buf (Elt Ideal) ((c : Thread nD τ).loc b))

/-- The printed index maps over the grid: block `t` of the row-tiled arrays starts at row `10000 · t`; the small
    operands are whole at every point. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- On one block: if the first block is rows `10000 · tv …` of `A` and the one-row block is the vector `bv`, the body's
    output at `j` is the log-softmax of the row of `A + bv` at the same place of the whole array. -/
theorem block2_eq (A : FVec Ideal S100000x2 .f32) (bv : FVec Ideal S2 .f32)
    (x0 : Vec Ideal S10000x2 .f32) (x1 : Vec Ideal S1x2 .f32) (tv : ℕ)
    (h0 : ∀ (y : S10000x2.Idx) (z : S100000x2.Idx), (z 0).val = tv * 10000 + (y 0).val → (z 1).val = (y 1).val → x0 y = A z)
    (h1 : ∀ y : S1x2.Idx, x1 y = bv (ix1 (y 1)))
    (j : S10000x2.Idx) (i : S100000x2.Idx) (hi0 : (i 0).val = tv * 10000 + (j 0).val) (hi1 : (i 1).val = (j 1).val) :
    out2_2 (F := Ideal) x0 x1 j = Cert.Gcn.head (Cert.Gcn.logits A bv) i := by
  obtain ⟨p, q, rfl⟩ : ∃ (p : Fin 10000) (q : Fin 2), j = ix2 p q := ⟨j 0, j 1, eq_ix2 j⟩
  obtain ⟨r, q', rfl⟩ : ∃ (r : Fin 100000) (q' : Fin 2), i = ix2 r q' := ⟨i 0, i 1, eq_ix2 i⟩
  have hq : q' = q := Fin.ext hi1
  subst hq
  rw [out2_2_apply, Cert.Gcn.head_logits_apply]
  refine congrArg (fun f => Cert.ChebRows.logSoftmax (Ideal.ofBits .f32 0xFF800000#32) f q') (funext fun k => ?_)
  rw [h0 (ix2 p k) (ix2 r k) hi0 rfl, h1 (ix2 (0 : Fin 1) k)]

/-- What point `t` writes back is block `t` of the log-softmax of the rows of the first array plus the bias. -/
theorem flushed2 (c : Dev nD) (bv : FVec Ideal S2 .f32) (hb : ∀ k : Fin 2, V c main_v32 (ix2 (0 : Fin 1) k) = bv (ix1 k)) (t : Fin cfg2.N) :
    (dat2 (F := Ideal) V c).flushed 2 t = ((cfg2.win 2).blk t).view.read (Elt Ideal) (Cert.Gcn.head (Cert.Gcn.logits (V c main_v58) bv)) := by
  show (cfg2.win 2).cut (grid2.coords t) ((dat2 V c).after 2 t) = _
  rw [after2_2]
  obtain ⟨e0, e1, e2, e3, e4, e5⟩ := idx_facts2 t
  funext j
  show out2_2 (F := Ideal) (iblk2 V c 0 t) (iblk2 V c 1 t) j = (Cert.Gcn.head (Cert.Gcn.logits (V c main_v58) bv)) (((cfg2.win 2).blk t).view.emb j)
  refine block2_eq (V c main_v58) bv (iblk2 V c 0 t) (iblk2 V c 1 t) t.val ?_ ?_ j _ ?_ ?_
  · intro y z hz0 hz1
    show V c main_v58 (((cfg2.win 0).blk t).view.emb y) = V c main_v58 z
    refine congrArg _ (funext fun a => Fin.ext ?_)
    match a with
    | ⟨0, _⟩ => show win2_0.index t (0 : Fin 2) * 10000 + 1 * (y 0).val = (z 0).val; omega
    | ⟨1, _⟩ => show win2_0.index t (1 : Fin 2) * 2 + 1 * (y 1).val = (z 1).val; omega
  · intro y
    show V c main_v32 (((cfg2.win 1).blk t).view.emb y) = bv (ix1 (y 1))
    have hy0 : (y 0).val < 1 := (y 0).isLt
    refine (congrArg (V c main_v32) (funext fun a => Fin.ext ?_)).trans (hb (y 1))
    match a with
    | ⟨0, _⟩ => show win2_1.index t (0 : Fin 2) * 1 + 1 * (y 0).val = 0; omega
    | ⟨1, _⟩ => show win2_1.index t (1 : Fin 2) * 2 + 1 * (y 1).val = (y 1).val; omega
  · show win2_2.index t (0 : Fin 2) * 10000 + 1 * (j 0).val = t.val * 10000 + (j 0).val; omega
  · show win2_2.index t (1 : Fin 2) * 2 + 1 * (j 1).val = (j 1).val; omega

/-- An index of the output array is in point `t`'s block iff each coordinate is in the block's range. -/
theorem mem_blk2 (t : Fin cfg2.N) (i : S100000x2.Idx) :
    i ∈ ((cfg2.win 2).blk t).view.set ↔ ∀ a : Fin 2, win2_2.index t a * S10000x2.size a ≤ (i a).val ∧ (i a).val < win2_2.index t a * S10000x2.size a + S10000x2.size a := by
  show i ∈ ((View.whole main_v59).slice (win2_2.rect t)).set ↔ _
  rw [View.set_slice_whole, Rect.mem_set_unit]
  exact Iff.rfl

/-- The ten blocks of 10000 rows tile the output array: row `r` is in the block of point `r / 10000`. -/
theorem cover2 (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  have hN : grid2.N = 10 := N_2
  have ht : (i 0).val / 10000 < cfg2.N := by show (i 0).val / 10000 < grid2.N; omega
  obtain ⟨e0, e1, e2, e3, e4, e5⟩ := idx_facts2 ⟨(i 0).val / 10000, ht⟩
  refine ⟨⟨(i 0).val / 10000, ht⟩, flush2_2 _, ?_⟩
  rw [mem_blk2]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, ht⟩ (1 : Fin 2) * 2 ≤ (i 1).val ∧ (i 1).val < win2_2.index ⟨(i 0).val / 10000, ht⟩ (1 : Fin 2) * 2 + 2
    rw [e5]
    omega

/-- The output array after the region: the log-softmax of the rows of the first array plus the bias. -/
theorem arr2 (c : Dev nD) (bv : FVec Ideal S2 .f32) (hb : ∀ k : Fin 2, V c main_v32 (ix2 (0 : Fin 1) k) = bv (ix1 k)) : (dat2 (F := Ideal) V c).arrAt 2 cfg2.N = Cert.Gcn.head (Cert.Gcn.logits (V c main_v58) bv) :=
  (dat2 (F := Ideal) V c).arrAt_eq_of_cover 2 (Cert.Gcn.head (Cert.Gcn.logits (V c main_v58) bv)) (fun t _ => flushed2 V c bv hb t) cover2

end Region2

end Cert.KernelIdeal.Arrays

end
-- ==== Proof.KernelValue.lean ====
/-
  The idealized kernel's result as the network of its arguments.

  The run's last boundary contents hold, at the result buffer, what the third region leaves: the log-softmax head of what
  it was entered with. Going back through the boundaries: the third region's input is the second propagation step of the
  second region's output; that output is the hidden dense stage of the first propagation step of the first region's
  output; and the first region's output is the first product of the arguments. The propagation steps are read off the
  stretches of host operations between the regions; the graph's arrays (the two index lists and the edge coefficients)
  and the bias rows are computed before the first region and carried unchanged through every later boundary, because no
  later operation and no region writes them.

  Each stretch of host operations is first read from ARBITRARY contents `V`, the few values it uses given as hypotheses;
  the boundaries of the run are then instances.
-/
import proofs.«171294_j37108517437448_1_alg».proof.Proof.Gen.KernelIdeal.Frame
import proofs.«171294_j37108517437448_1_alg».proof.Proof.KernelArrays
import proofs.«171294_j37108517437448_1_alg».proof.Proof.Layers
import Idealize.ShloMosaic.Lib.StableHlo.Run
import Idealize.ShloMosaic.Lib.Pipeline.Value
import Idealize.ShloMosaic.Lib.ValueIdx

set_option maxRecDepth 16384
set_option maxHeartbeats 1000000

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen

/-- A reference that no operation of a stretch writes keeps its contents over the stretch. -/
macro "keeps_over" ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The stretches of host operations, each read from arbitrary contents -/

/-- First stretch: the sources' list. -/
theorem s0_v3 (V : Valuation τ sig (Elt Ideal)) (e : IVec S2x3200000 32) (h5 : V (Proc.devRef .tc main_arg5) = e) :
    (StableHlo.after hostOps0 V (Proc.devRef .tc main_v3) : IVec S3300000 32) = Cert.Gcn.srcIds e := by
  dsimp only [hostOps0]
  after_results
  rw [h5]
  rfl

/-- First stretch: the targets' list. -/
theorem s0_v6 (V : Valuation τ sig (Elt Ideal)) (e : IVec S2x3200000 32) (h5 : V (Proc.devRef .tc main_arg5) = e) :
    (StableHlo.after hostOps0 V (Proc.devRef .tc main_v6) : IVec S3300000 32) = Cert.Gcn.dstIds e := by
  dsimp only [hostOps0]
  after_results
  rw [h5]
  rfl

/-- First stretch: which degrees are positive. -/
theorem s0_v12 (V : Valuation τ sig (Elt Ideal)) (e : IVec S2x3200000 32) (h5 : V (Proc.devRef .tc main_arg5) = e) :
    (StableHlo.after hostOps0 V (Proc.devRef .tc main_v12) : IVec S100000 1) = cmpf (F := Ideal) .ogt (Cert.Gcn.degree e) (broadcastInDim S100000 ![] bcast_S_S100000 (constant S_ .f32 0x00000000#32)) := by
  dsimp only [hostOps0]
  after_results
  rw [h5]
  rfl

/-- First stretch: the degrees' inverse square roots. -/
theorem s0_v13 (V : Valuation τ sig (Elt Ideal)) (e : IVec S2x3200000 32) (h5 : V (Proc.devRef .tc main_arg5) = e) :
    (StableHlo.after hostOps0 V (Proc.devRef .tc main_v13) : FVec Ideal S100000 .f32) = Host.rsqrt (Cert.Gcn.degree e) := by
  dsimp only [hostOps0]
  after_results
  rw [h5]
  rfl

/-- First stretch: the constant 0. -/
theorem s0_cst_2 (V : Valuation τ sig (Elt Ideal)) :
    (StableHlo.after hostOps0 V (Proc.devRef .tc main_cst_2) : FVec Ideal S_ .f32) = constant (F := Ideal) S_ .f32 0x00000000#32 := by
  dsimp only [hostOps0]
  after_results

/-- Second stretch: the selection, a node's weight. -/
theorem s1_v14 (V : Valuation τ sig (Elt Ideal)) (e : IVec S2x3200000 32) (h12 : V (Proc.devRef .tc main_v12) = cmpf (F := Ideal) .ogt (Cert.Gcn.degree e) (broadcastInDim S100000 ![] bcast_S_S100000 (constant S_ .f32 0x00000000#32))) (h13 : V (Proc.devRef .tc main_v13) = Host.rsqrt (Cert.Gcn.degree e)) (hc : V (Proc.devRef .tc main_cst_2) = constant (F := Ideal) S_ .f32 0x00000000#32) :
    (StableHlo.after hostOps0_1 V (Proc.devRef .tc main_v14) : FVec Ideal S100000 .f32) = Cert.Gcn.degInvSqrt e := by
  dsimp only [hostOps0_1]
  after_results
  simp only [TRef.toBuf, TRef.ofBuf, cast_eq]
  rw [h12, h13, hc]
  rfl

theorem s1_keep_v3 (V : Valuation τ sig (Elt Ideal)) : StableHlo.after hostOps0_1 V (Proc.devRef .tc main_v3) = V (Proc.devRef .tc main_v3) := by
  keeps_over hostOps0_1

theorem s1_keep_v6 (V : Valuation τ sig (Elt Ideal)) : StableHlo.after hostOps0_1 V (Proc.devRef .tc main_v6) = V (Proc.devRef .tc main_v6) := by
  keeps_over hostOps0_1

/-- Third stretch: the edges' coefficients, as a column. -/
theorem s2_v30 (V : Valuation τ sig (Elt Ideal)) (e : IVec S2x3200000 32) (h14 : V (Proc.devRef .tc main_v14) = Cert.Gcn.degInvSqrt e) (h3 : V (Proc.devRef .tc main_v3) = Cert.Gcn.srcIds e) (h6 : V (Proc.devRef .tc main_v6) = Cert.Gcn.dstIds e) :
    (StableHlo.after hostOps0_2 V (Proc.devRef .tc main_v30) : FVec Ideal S3300000x1 .f32) = Cert.Gcn.normCol e := by
  dsimp only [hostOps0_2]
  after_results
  rw [h14, h3, h6]
  rfl

theorem s2_keep_v3 (V : Valuation τ sig (Elt Ideal)) : StableHlo.after hostOps0_2 V (Proc.devRef .tc main_v3) = V (Proc.devRef .tc main_v3) := by
  keeps_over hostOps0_2

theorem s2_keep_v6 (V : Valuation τ sig (Elt Ideal)) : StableHlo.after hostOps0_2 V (Proc.devRef .tc main_v6) = V (Proc.devRef .tc main_v6) := by
  keeps_over hostOps0_2

/-- Third stretch: the first bias as a one-row array. -/
theorem s2_v31 (V : Valuation τ sig (Elt Ideal)) (b : FVec Ideal S16 .f32) (h2 : V (Proc.devRef .tc main_arg2) = b) :
    (StableHlo.after hostOps0_2 V (Proc.devRef .tc main_v31) : FVec Ideal S1x16 .f32) = shapeCast S1x16 b shapeCasts_S16_S1x16 := by
  dsimp only [hostOps0_2]
  after_results
  rw [h2]
  rfl

/-- Third stretch: the second bias as a one-row array. -/
theorem s2_v32 (V : Valuation τ sig (Elt Ideal)) (b : FVec Ideal S2 .f32) (h4 : V (Proc.devRef .tc main_arg4) = b) :
    (StableHlo.after hostOps0_2 V (Proc.devRef .tc main_v32) : FVec Ideal S1x2 .f32) = shapeCast S1x2 b shapeCasts_S2_S1x2 := by
  dsimp only [hostOps0_2]
  after_results
  rw [h4]
  rfl

/-- Between the first two regions: one propagation step. -/
theorem h1_v45 (V : Valuation τ sig (Elt Ideal)) (e : IVec S2x3200000 32) (h : FVec Ideal S100000x16 .f32) (h33 : V (Proc.devRef .tc main_v33) = h) (h3 : V (Proc.devRef .tc main_v3) = Cert.Gcn.srcIds e) (h6 : V (Proc.devRef .tc main_v6) = Cert.Gcn.dstIds e) (h30 : V (Proc.devRef .tc main_v30) = Cert.Gcn.normCol e) :
    (StableHlo.after hostOps1 V (Proc.devRef .tc main_v45) : FVec Ideal S100000x16 .f32) = Cert.Gcn.propagate16 e h := by
  dsimp only [hostOps1]
  after_results
  rw [h33, h3, h6, h30]
  rfl

theorem h1_keep_v3 (V : Valuation τ sig (Elt Ideal)) : StableHlo.after hostOps1 V (Proc.devRef .tc main_v3) = V (Proc.devRef .tc main_v3) := by
  keeps_over hostOps1

theorem h1_keep_v6 (V : Valuation τ sig (Elt Ideal)) : StableHlo.after hostOps1 V (Proc.devRef .tc main_v6) = V (Proc.devRef .tc main_v6) := by
  keeps_over hostOps1

theorem h1_keep_v30 (V : Valuation τ sig (Elt Ideal)) : StableHlo.after hostOps1 V (Proc.devRef .tc main_v30) = V (Proc.devRef .tc main_v30) := by
  keeps_over hostOps1

theorem h1_keep_v31 (V : Valuation τ sig (Elt Ideal)) : StableHlo.after hostOps1 V (Proc.devRef .tc main_v31) = V (Proc.devRef .tc main_v31) := by
  keeps_over hostOps1

theorem h1_keep_v32 (V : Valuation τ sig (Elt Ideal)) : StableHlo.after hostOps1 V (Proc.devRef .tc main_v32) = V (Proc.devRef .tc main_v32) := by
  keeps_over hostOps1

theorem h1_keep_arg3 (V : Valuation τ sig (Elt Ideal)) : StableHlo.after hostOps1 V (Proc.devRef .tc main_arg3) = V (Proc.devRef .tc main_arg3) := by
  keeps_over hostOps1

/-- Between the last two regions: one propagation step. -/
theorem h2_v58 (V : Valuation τ sig (Elt Ideal)) (e : IVec S2x3200000 32) (h : FVec Ideal S100000x2 .f32) (h46 : V (Proc.devRef .tc main_v46) = h) (h3 : V (Proc.devRef .tc main_v3) = Cert.Gcn.srcIds e) (h6 : V (Proc.devRef .tc main_v6) = Cert.Gcn.dstIds e) (h30 : V (Proc.devRef .tc main_v30) = Cert.Gcn.normCol e) :
    (StableHlo.after hostOps2 V (Proc.devRef .tc main_v58) : FVec Ideal S100000x2 .f32) = Cert.Gcn.propagate2 e h := by
  dsimp only [hostOps2]
  after_results
  rw [h46, h3, h6, h30]
  rfl

theorem h2_keep_v32 (V : Valuation τ sig (Elt Ideal)) : StableHlo.after hostOps2 V (Proc.devRef .tc main_v32) = V (Proc.devRef .tc main_v32) := by
  keeps_over hostOps2

variable (m : (ℓ : Loc nD τ sig) → Buf (Elt Ideal) ℓ) (ρ : Dev nD → PrngReg)

/-! ## Before the first region -/

theorem W1_v3 (c : Dev nD) : (W1 m ρ c (Proc.devRef .tc main_v3) : IVec S3300000 32) = Cert.Gcn.srcIds (m ((c : Thread nD τ).loc main_arg5)) := s0_v3 (W0 m ρ c) _ rfl
theorem W1_v6 (c : Dev nD) : (W1 m ρ c (Proc.devRef .tc main_v6) : IVec S3300000 32) = Cert.Gcn.dstIds (m ((c : Thread nD τ).loc main_arg5)) := s0_v6 (W0 m ρ c) _ rfl
theorem W1_v12 (c : Dev nD) : (W1 m ρ c (Proc.devRef .tc main_v12) : IVec S100000 1) = cmpf (F := Ideal) .ogt (Cert.Gcn.degree (m ((c : Thread nD τ).loc main_arg5))) (broadcastInDim S100000 ![] bcast_S_S100000 (constant S_ .f32 0x00000000#32)) := s0_v12 (W0 m ρ c) _ rfl
theorem W1_v13 (c : Dev nD) : (W1 m ρ c (Proc.devRef .tc main_v13) : FVec Ideal S100000 .f32) = Host.rsqrt (Cert.Gcn.degree (m ((c : Thread nD τ).loc main_arg5))) := s0_v13 (W0 m ρ c) _ rfl
theorem W1_cst_2 (c : Dev nD) : (W1 m ρ c (Proc.devRef .tc main_cst_2) : FVec Ideal S_ .f32) = constant (F := Ideal) S_ .f32 0x00000000#32 := s0_cst_2 (W0 m ρ c)

theorem W2_v14 (c : Dev nD) : (W2 m ρ c (Proc.devRef .tc main_v14) : FVec Ideal S100000 .f32) = Cert.Gcn.degInvSqrt (m ((c : Thread nD τ).loc main_arg5)) :=
  s1_v14 (W1 m ρ c) _ (W1_v12 m ρ c) (W1_v13 m ρ c) (W1_cst_2 m ρ c)
theorem W2_v3 (c : Dev nD) : (W2 m ρ c (Proc.devRef .tc main_v3) : IVec S3300000 32) = Cert.Gcn.srcIds (m ((c : Thread nD τ).loc main_arg5)) := (s1_keep_v3 (W1 m ρ c)).trans (W1_v3 m ρ c)
theorem W2_v6 (c : Dev nD) : (W2 m ρ c (Proc.devRef .tc main_v6) : IVec S3300000 32) = Cert.Gcn.dstIds (m ((c : Thread nD τ).loc main_arg5)) := (s1_keep_v6 (W1 m ρ c)).trans (W1_v6 m ρ c)

theorem W2_arg2 (c : Dev nD) : W2 m ρ c (Proc.devRef .tc main_arg2) = (m ((c : Thread nD τ).loc main_arg2)) := by
  dsimp only [W2, W1, hostOps0, hostOps0_1]
  after_results_simp <;> rfl

theorem W2_arg4 (c : Dev nD) : W2 m ρ c (Proc.devRef .tc main_arg4) = (m ((c : Thread nD τ).loc main_arg4)) := by
  dsimp only [W2, W1, hostOps0, hostOps0_1]
  after_results_simp <;> rfl

theorem W3_v30 (c : Dev nD) : (W3 m ρ c (Proc.devRef .tc main_v30) : FVec Ideal S3300000x1 .f32) = Cert.Gcn.normCol (m ((c : Thread nD τ).loc main_arg5)) :=
  s2_v30 (W2 m ρ c) _ (W2_v14 m ρ c) (W2_v3 m ρ c) (W2_v6 m ρ c)
theorem W3_v3 (c : Dev nD) : (W3 m ρ c (Proc.devRef .tc main_v3) : IVec S3300000 32) = Cert.Gcn.srcIds (m ((c : Thread nD τ).loc main_arg5)) := (s2_keep_v3 (W2 m ρ c)).trans (W2_v3 m ρ c)
theorem W3_v6 (c : Dev nD) : (W3 m ρ c (Proc.devRef .tc main_v6) : IVec S3300000 32) = Cert.Gcn.dstIds (m ((c : Thread nD τ).loc main_arg5)) := (s2_keep_v6 (W2 m ρ c)).trans (W2_v6 m ρ c)

theorem W3_arg0 (c : Dev nD) : W3 m ρ c (Proc.devRef .tc main_arg0) = (m ((c : Thread nD τ).loc main_arg0)) := by
  dsimp only [W3, W2, W1, hostOps0, hostOps0_1, hostOps0_2]
  after_results_simp <;> rfl

theorem W3_arg1 (c : Dev nD) : W3 m ρ c (Proc.devRef .tc main_arg1) = (m ((c : Thread nD τ).loc main_arg1)) := by
  dsimp only [W3, W2, W1, hostOps0, hostOps0_1, hostOps0_2]
  after_results_simp <;> rfl

theorem W3_arg3 (c : Dev nD) : (W3 m ρ c (Proc.devRef .tc main_arg3) : FVec Ideal S16x2 .f32) = (m ((c : Thread nD τ).loc main_arg3)) := by
  dsimp only [W3, W2, W1, hostOps0, hostOps0_1, hostOps0_2]
  after_results_simp <;> rfl

/-- The first bias as a one-row array reads, at `(0, k)`, the bias vector at `k`. -/
theorem W3_v31_row (c : Dev nD) (k : Fin 16) :
    (W3 m ρ c (Proc.devRef .tc main_v31) : FVec Ideal S1x16 .f32) (ix2 (0 : Fin 1) k) = ((m ((c : Thread nD τ).loc main_arg2)) : FVec Ideal S16 .f32) (ix1 k) := by
  rw [show (W3 m ρ c (Proc.devRef .tc main_v31) : FVec Ideal S1x16 .f32) = shapeCast S1x16 ((m ((c : Thread nD τ).loc main_arg2)) : FVec Ideal S16 .f32) shapeCasts_S16_S1x16
    from s2_v31 (W2 m ρ c) _ (W2_arg2 m ρ c)]
  exact shapeCast_apply (s := S16) (t := S1x16) _ shapeCasts_S16_S1x16 (ix2 (0 : Fin 1) k) (ix1 k) (by
    rw [Shape.rowMajor_val_two, Shape.rowMajor_val_one]; show k.val = 0 * 16 + k.val; omega)

/-- The second bias likewise. -/
theorem W3_v32_row (c : Dev nD) (k : Fin 2) :
    (W3 m ρ c (Proc.devRef .tc main_v32) : FVec Ideal S1x2 .f32) (ix2 (0 : Fin 1) k) = ((m ((c : Thread nD τ).loc main_arg4)) : FVec Ideal S2 .f32) (ix1 k) := by
  rw [show (W3 m ρ c (Proc.devRef .tc main_v32) : FVec Ideal S1x2 .f32) = shapeCast S1x2 ((m ((c : Thread nD τ).loc main_arg4)) : FVec Ideal S2 .f32) shapeCasts_S2_S1x2
    from s2_v32 (W2 m ρ c) _ (W2_arg4 m ρ c)]
  exact shapeCast_apply (s := S2) (t := S1x2) _ shapeCasts_S2_S1x2 (ix2 (0 : Fin 1) k) (ix1 k) (by
    rw [Shape.rowMajor_val_two, Shape.rowMajor_val_one]; show k.val = 0 * 2 + k.val; omega)

/-! ## Carried through the later boundaries -/

theorem W4_v3 (c : Dev nD) : (W4 m ρ c (Proc.devRef .tc main_v3) : IVec S3300000 32) = Cert.Gcn.srcIds (m ((c : Thread nD τ).loc main_arg5)) :=
  (W4_of_ne m ρ c main_v3 (by decide)).trans (W3_v3 m ρ c)
theorem W4_v6 (c : Dev nD) : (W4 m ρ c (Proc.devRef .tc main_v6) : IVec S3300000 32) = Cert.Gcn.dstIds (m ((c : Thread nD τ).loc main_arg5)) :=
  (W4_of_ne m ρ c main_v6 (by decide)).trans (W3_v6 m ρ c)
theorem W4_v30 (c : Dev nD) : (W4 m ρ c (Proc.devRef .tc main_v30) : FVec Ideal S3300000x1 .f32) = Cert.Gcn.normCol (m ((c : Thread nD τ).loc main_arg5)) :=
  (W4_of_ne m ρ c main_v30 (by decide)).trans (W3_v30 m ρ c)
theorem W4_arg3 (c : Dev nD) : (W4 m ρ c (Proc.devRef .tc main_arg3) : FVec Ideal S16x2 .f32) = (m ((c : Thread nD τ).loc main_arg3)) :=
  (W4_of_ne m ρ c main_arg3 (by decide)).trans (W3_arg3 m ρ c)
theorem W4_v31 (c : Dev nD) : W4 m ρ c (Proc.devRef .tc main_v31) = W3 m ρ c (Proc.devRef .tc main_v31) := W4_of_ne m ρ c main_v31 (by decide)
theorem W4_v32 (c : Dev nD) : W4 m ρ c (Proc.devRef .tc main_v32) = W3 m ρ c (Proc.devRef .tc main_v32) := W4_of_ne m ρ c main_v32 (by decide)
theorem W5_v3 (c : Dev nD) : (W5 m ρ c (Proc.devRef .tc main_v3) : IVec S3300000 32) = Cert.Gcn.srcIds (m ((c : Thread nD τ).loc main_arg5)) :=
  (h1_keep_v3 (W4 m ρ c)).trans (W4_v3 m ρ c)
theorem W5_v6 (c : Dev nD) : (W5 m ρ c (Proc.devRef .tc main_v6) : IVec S3300000 32) = Cert.Gcn.dstIds (m ((c : Thread nD τ).loc main_arg5)) :=
  (h1_keep_v6 (W4 m ρ c)).trans (W4_v6 m ρ c)
theorem W5_v30 (c : Dev nD) : (W5 m ρ c (Proc.devRef .tc main_v30) : FVec Ideal S3300000x1 .f32) = Cert.Gcn.normCol (m ((c : Thread nD τ).loc main_arg5)) :=
  (h1_keep_v30 (W4 m ρ c)).trans (W4_v30 m ρ c)
theorem W5_arg3 (c : Dev nD) : (W5 m ρ c (Proc.devRef .tc main_arg3) : FVec Ideal S16x2 .f32) = (m ((c : Thread nD τ).loc main_arg3)) :=
  (h1_keep_arg3 (W4 m ρ c)).trans (W4_arg3 m ρ c)
theorem W5_v31 (c : Dev nD) : W5 m ρ c (Proc.devRef .tc main_v31) = W3 m ρ c (Proc.devRef .tc main_v31) := (h1_keep_v31 (W4 m ρ c)).trans (W4_v31 m ρ c)
theorem W5_v32 (c : Dev nD) : W5 m ρ c (Proc.devRef .tc main_v32) = W3 m ρ c (Proc.devRef .tc main_v32) := (h1_keep_v32 (W4 m ρ c)).trans (W4_v32 m ρ c)
theorem W6_v3 (c : Dev nD) : (W6 m ρ c (Proc.devRef .tc main_v3) : IVec S3300000 32) = Cert.Gcn.srcIds (m ((c : Thread nD τ).loc main_arg5)) :=
  (W6_of_ne m ρ c main_v3 (by decide)).trans (W5_v3 m ρ c)
theorem W6_v6 (c : Dev nD) : (W6 m ρ c (Proc.devRef .tc main_v6) : IVec S3300000 32) = Cert.Gcn.dstIds (m ((c : Thread nD τ).loc main_arg5)) :=
  (W6_of_ne m ρ c main_v6 (by decide)).trans (W5_v6 m ρ c)
theorem W6_v30 (c : Dev nD) : (W6 m ρ c (Proc.devRef .tc main_v30) : FVec Ideal S3300000x1 .f32) = Cert.Gcn.normCol (m ((c : Thread nD τ).loc main_arg5)) :=
  (W6_of_ne m ρ c main_v30 (by decide)).trans (W5_v30 m ρ c)
theorem W6_v32 (c : Dev nD) : W6 m ρ c (Proc.devRef .tc main_v32) = W3 m ρ c (Proc.devRef .tc main_v32) := (W6_of_ne m ρ c main_v32 (by decide)).trans (W5_v32 m ρ c)
theorem W7_v32 (c : Dev nD) : W7 m ρ c (Proc.devRef .tc main_v32) = W3 m ρ c (Proc.devRef .tc main_v32) := (h2_keep_v32 (W6 m ρ c)).trans (W6_v32 m ρ c)

/-! ## The stages, first to last -/

/-- After the first region: `x · w1`. -/
theorem W4_v33 (c : Dev nD) : (W4 m ρ c (Proc.devRef .tc main_v33) : FVec Ideal S100000x16 .f32) = Cert.Gcn.lin1 (m ((c : Thread nD τ).loc main_arg0)) (m ((c : Thread nD τ).loc main_arg1)) := by
  refine (W4_arr m ρ c 2).trans ?_
  refine (Cert.KernelIdeal.Arrays.arr0 (V3 m ρ) c).trans ?_
  show Cert.Gcn.lin1 (W3 m ρ c (Proc.devRef .tc main_arg0)) (W3 m ρ c (Proc.devRef .tc main_arg1)) = _
  rw [W3_arg0, W3_arg1]

/-- After the first stretch between regions: the first propagation step of it. -/
theorem W5_v45 (c : Dev nD) : (W5 m ρ c (Proc.devRef .tc main_v45) : FVec Ideal S100000x16 .f32) = Cert.Gcn.propagate16 (m ((c : Thread nD τ).loc main_arg5)) (Cert.Gcn.lin1 (m ((c : Thread nD τ).loc main_arg0)) (m ((c : Thread nD τ).loc main_arg1))) :=
  h1_v45 (W4 m ρ c) _ _ (W4_v33 m ρ c) (W4_v3 m ρ c) (W4_v6 m ρ c) (W4_v30 m ρ c)

/-- After the second region: the hidden dense stage of it. -/
theorem W6_v46 (c : Dev nD) : (W6 m ρ c (Proc.devRef .tc main_v46) : FVec Ideal S100000x2 .f32) = Cert.Gcn.hidden (Cert.Gcn.propagate16 (m ((c : Thread nD τ).loc main_arg5)) (Cert.Gcn.lin1 (m ((c : Thread nD τ).loc main_arg0)) (m ((c : Thread nD τ).loc main_arg1)))) (m ((c : Thread nD τ).loc main_arg2)) (m ((c : Thread nD τ).loc main_arg3)) := by
  refine (W6_arr m ρ c 3).trans ?_
  refine (Cert.KernelIdeal.Arrays.arr1 (V5 m ρ) c (m ((c : Thread nD τ).loc main_arg2)) (fun k => ?_)).trans ?_
  · show (W5 m ρ c (Proc.devRef .tc main_v31) : FVec Ideal S1x16 .f32) (ix2 (0 : Fin 1) k) = _
    rw [W5_v31]
    exact W3_v31_row m ρ c k
  · show Cert.Gcn.hidden (W5 m ρ c (Proc.devRef .tc main_v45)) _ (W5 m ρ c (Proc.devRef .tc main_arg3)) = _
    rw [W5_v45, W5_arg3]

/-- After the second stretch between regions: the second propagation step of it. -/
theorem W7_v58 (c : Dev nD) : (W7 m ρ c (Proc.devRef .tc main_v58) : FVec Ideal S100000x2 .f32) = Cert.Gcn.propagate2 (m ((c : Thread nD τ).loc main_arg5)) (Cert.Gcn.hidden (Cert.Gcn.propagate16 (m ((c : Thread nD τ).loc main_arg5)) (Cert.Gcn.lin1 (m ((c : Thread nD τ).loc main_arg0)) (m ((c : Thread nD τ).loc main_arg1)))) (m ((c : Thread nD τ).loc main_arg2)) (m ((c : Thread nD τ).loc main_arg3))) :=
  h2_v58 (W6 m ρ c) _ _ (W6_v46 m ρ c) (W6_v3 m ρ c) (W6_v6 m ρ c) (W6_v30 m ρ c)

/-- The result buffer at the last boundary: the network of the arguments. -/
theorem result (c : Dev nD) :
    (W8 m ρ c (Proc.devRef .tc main_v59) : FVec Ideal S100000x2 .f32)
      = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ?_
  refine (Cert.KernelIdeal.Arrays.arr2 (V7 m ρ) c (m ((c : Thread nD τ).loc main_arg4)) (fun k => ?_)).trans ?_
  · show (W7 m ρ c (Proc.devRef .tc main_v32) : FVec Ideal S1x2 .f32) (ix2 (0 : Fin 1) k) = _
    rw [W7_v32]
    exact W3_v32_row m ρ c k
  · show Cert.Gcn.head (Cert.Gcn.logits (W7 m ρ c (Proc.devRef .tc main_v58)) _) = _
    rw [W7_v58]
    rfl

end Cert.KernelIdeal.Result

end
-- ==== Proof.RefRun.lean ====
/-
  The reference program's run, read as the network of its arguments.

  The reference is a straight line of 138 host operations. Every weakly fair execution of it terminates with each buffer
  at the fold of the operations' results over the launch contents. The line is cut here into ten stretches — the graph's
  index lists and degrees; the selection of the nodes' weights; the edges' coefficients; the first product and the first
  propagation step; bias and rectifier; the same three graph stretches once more (the reference computes the graph's
  arrays once per layer, both times by the same operations of the same edge array); the second product and the second
  propagation step; the second bias and the log-softmax — and each stretch is read from the contents the stretch before
  it left (each stretch first from ARBITRARY contents, the few values it uses given as hypotheses; the run's boundaries are
  then instances). Read at the result buffer, the fold is the network `Cert.Gcn.gcn` of the argument arrays. No operation writes
  an argument.
-/
import proofs.«171294_j37108517437448_1_alg».proof.Proof.RefRunPatched
import proofs.«171294_j37108517437448_1_alg».proof.Proof.Layers
import Idealize.ShloMosaic.Lib.StableHlo.Run

set_option maxRecDepth 16384
set_option maxHeartbeats 1000000

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

/-- A reference that no operation of a stretch writes keeps its contents over the stretch. -/
macro "unwritten_by" ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- The contents after two lines run one after the other. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-! ## The ten stretches -/

section Stretches
variable {F : FTy → Type} [FloatOps F]

/-- Operations 1 … 18 of the reference. -/
abbrev segA : List (HloOp τ sig (Elt F)) :=
  [ nullary main_v0 (iotaInDim S100000 32 0),
    unary main_arg5 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg5 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Operations 19 … 21 of the reference. -/
abbrev segB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Operations 22 … 40 of the reference. -/
abbrev segC : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- Operations 41 … 57 of the reference. -/
abbrev segD : List (HloOp τ sig (Elt F)) :=
  [ binary main_arg0 main_arg1 main_v30 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Operations 58 … 63 of the reference. -/
abbrev segE : List (HloOp τ sig (Elt F)) :=
  [ unary main_arg2 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- Operations 64 … 81 of the reference. -/
abbrev segF : List (HloOp τ sig (Elt F)) :=
  [ nullary main_v48 (iotaInDim S100000 32 0),
    unary main_arg5 main_v49 ((extractStridedSlice S1x3200000 ![0, 0] · slices_S2x3200000_S1x3200000_0_0) : (⟨S2x3200000, .i32⟩ : BufTy).Contents (Elt F) → (⟨S1x3200000, .i32⟩ : BufTy).Contents (Elt F)),
    reshape main_v49 main_v50 rfl shapeCasts_S1x3200000_S3200000,
    binary main_v50 main_v48 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg5 main_v52 ((extractStridedSlice S1x3200000 ![1, 0] · slices_S2x3200000_S1x3200000_1_0) : (⟨S2x3200000, .i32⟩ : BufTy).Contents (Elt F) → (⟨S1x3200000, .i32⟩ : BufTy).Contents (Elt F)),
    reshape main_v52 main_v53 rfl shapeCasts_S1x3200000_S3200000,
    binary main_v53 main_v48 main_v54 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v55 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S3300000x1 ![0] bcast_S3300000_S3300000x1_0 : (⟨S3300000, .i32⟩ : BufTy).Contents (Elt F) → (⟨S3300000x1, .i32⟩ : BufTy).Contents (Elt F)),
    ternary main_v56 main_v57 main_v55 main_v58 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32) ]

/-- Operations 82 … 84 of the reference. -/
abbrev segG : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select ]

/-- Operations 85 … 103 of the reference. -/
abbrev segH : List (HloOp τ sig (Elt F)) :=
  [ nullary main_c_13 (constantI S_ 32 0#32),
    unary main_c_13 main_v63 (broadcastInDim S3300000 ![] bcast_S_S3300000 : (⟨S_, .i32⟩ : BufTy).Contents (Elt F) → (⟨S3300000, .i32⟩ : BufTy).Contents (Elt F)),
    binary main_v51 main_v63 main_v64 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v65 (broadcastInDim S3300000 ![] bcast_S_S3300000 : (⟨S_, .i32⟩ : BufTy).Contents (Elt F) → (⟨S3300000, .i32⟩ : BufTy).Contents (Elt F)),
    binary main_v51 main_v65 main_v66 (addi : (⟨S3300000, .i32⟩ : BufTy).Contents (Elt F) → (⟨S3300000, .i32⟩ : BufTy).Contents (Elt F) → (⟨S3300000, .i32⟩ : BufTy).Contents (Elt F)),
    ternary main_v64 main_v66 main_v51 main_v67 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v67 main_v68 (broadcastInDim S3300000x1 ![0] bcast_S3300000_S3300000x1_0 : (⟨S3300000, .i32⟩ : BufTy).Contents (Elt F) → (⟨S3300000x1, .i32⟩ : BufTy).Contents (Elt F)),
    binary main_v62 main_v68 main_v69 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v70 (broadcastInDim S3300000 ![] bcast_S_S3300000 : (⟨S_, .i32⟩ : BufTy).Contents (Elt F) → (⟨S3300000, .i32⟩ : BufTy).Contents (Elt F)),
    binary main_v54 main_v70 main_v71 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v72 (broadcastInDim S3300000 ![] bcast_S_S3300000 : (⟨S_, .i32⟩ : BufTy).Contents (Elt F) → (⟨S3300000, .i32⟩ : BufTy).Contents (Elt F)),
    binary main_v54 main_v72 main_v73 (addi : (⟨S3300000, .i32⟩ : BufTy).Contents (Elt F) → (⟨S3300000, .i32⟩ : BufTy).Contents (Elt F) → (⟨S3300000, .i32⟩ : BufTy).Contents (Elt F)),
    ternary main_v71 main_v73 main_v54 main_v74 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v74 main_v75 (broadcastInDim S3300000x1 ![0] bcast_S3300000_S3300000x1_0 : (⟨S3300000, .i32⟩ : BufTy).Contents (Elt F) → (⟨S3300000x1, .i32⟩ : BufTy).Contents (Elt F)),
    binary main_v62 main_v75 main_v76 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v69 main_v76 main_v77 (mulf : (⟨S3300000, .f32⟩ : BufTy).Contents (Elt F) → (⟨S3300000, .f32⟩ : BufTy).Contents (Elt F) → (⟨S3300000, .f32⟩ : BufTy).Contents (Elt F)) ]

/-- Operations 104 … 120 of the reference. -/
abbrev segI : List (HloOp τ sig (Elt F)) :=
  [ binary main_v47 main_arg3 main_v78 ((fun l r => Host.dotGeneral dot_S100000x16_S16x2_S100000x2_1_0_0_1_n_n none l r) : (⟨S100000x16, .f32⟩ : BufTy).Contents (Elt F) → (⟨S16x2, .f32⟩ : BufTy).Contents (Elt F) → (⟨S100000x2, .f32⟩ : BufTy).Contents (Elt F)),
    nullary main_c_17 (constantI S_ 32 0#32),
    unary main_c_17 main_v79 (broadcastInDim S3300000 ![] bcast_S_S3300000 : (⟨S_, .i32⟩ : BufTy).Contents (Elt F) → (⟨S3300000, .i32⟩ : BufTy).Contents (Elt F)),
    binary main_v51 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v81 (broadcastInDim S3300000 ![] bcast_S_S3300000 : (⟨S_, .i32⟩ : BufTy).Contents (Elt F) → (⟨S3300000, .i32⟩ : BufTy).Contents (Elt F)),
    binary main_v51 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v51 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v78 main_v84 main_v85 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v77 main_v86 (broadcastInDim S3300000x1 ![0] bcast_S3300000_S3300000x1_0 : (⟨S3300000, .f32⟩ : BufTy).Contents (Elt F) → (⟨S3300000x1, .f32⟩ : BufTy).Contents (Elt F)),
    unary main_v86 main_v87 (broadcastInDim S3300000x2 ![0, 1] bcast_S3300000x1_S3300000x2_0_1 : (⟨S3300000x1, .f32⟩ : BufTy).Contents (Elt F) → (⟨S3300000x2, .f32⟩ : BufTy).Contents (Elt F)),
    binary main_v85 main_v87 main_v88 (mulf : (⟨S3300000x2, .f32⟩ : BufTy).Contents (Elt F) → (⟨S3300000x2, .f32⟩ : BufTy).Contents (Elt F) → (⟨S3300000x2, .f32⟩ : BufTy).Contents (Elt F)),
    nullary main_cst_19 (constant S_ .f32 0x00000000#32),
    unary main_cst_19 main_v89 (broadcastInDim S100000x2 ![] bcast_S_S100000x2 : (⟨S_, .f32⟩ : BufTy).Contents (Elt F) → (⟨S100000x2, .f32⟩ : BufTy).Contents (Elt F)),
    unary main_v54 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)) ]

/-- Operations 121 … 138 of the reference. -/
abbrev segJ : List (HloOp τ sig (Elt F)) :=
  [ unary main_arg4 main_v92 (broadcastInDim S1x2 ![1] bcast_S2_S1x2_1 : (⟨S2, .f32⟩ : BufTy).Contents (Elt F) → (⟨S1x2, .f32⟩ : BufTy).Contents (Elt F)),
    unary main_v92 main_v93 (broadcastInDim S100000x2 ![0, 1] bcast_S1x2_S100000x2_0_1 : (⟨S1x2, .f32⟩ : BufTy).Contents (Elt F) → (⟨S100000x2, .f32⟩ : BufTy).Contents (Elt F)),
    binary main_v91 main_v93 main_v94 (addf : (⟨S100000x2, .f32⟩ : BufTy).Contents (Elt F) → (⟨S100000x2, .f32⟩ : BufTy).Contents (Elt F) → (⟨S100000x2, .f32⟩ : BufTy).Contents (Elt F)),
    TRef.nullary (TRef.of (T := ⟨S_, .f32⟩) main_call3_cst) (constant S_ .f32 0xFF800000#32),
    TRef.binary (TRef.of (T := ⟨S100000x2, .f32⟩) main_v94) (TRef.of (T := ⟨S_, .f32⟩) main_call3_cst) (TRef.of (T := ⟨S100000, .f32⟩) main_call3_v0) (fun x v => Host.reduce FloatOps.maximumf x v reducesTo_S100000x2_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x2, .f32⟩) main_call3_v4) (broadcastInDim S100000x2 ![0, 1] bcast_S100000x1_S100000x2_0_1),
    TRef.binary (TRef.of (T := ⟨S100000x2, .f32⟩) main_v94) (TRef.of (T := ⟨S100000x2, .f32⟩) main_call3_v4) (TRef.of (T := ⟨S100000x2, .f32⟩) main_call3_v5) subf,
    TRef.unary (TRef.of (T := ⟨S100000x2, .f32⟩) main_call3_v5) (TRef.of (T := ⟨S100000x2, .f32⟩) main_call3_v6) Host.exp,
    TRef.nullary (TRef.of (T := ⟨S_, .f32⟩) main_call3_cst_1) (constant S_ .f32 0x00000000#32),
    TRef.binary (TRef.of (T := ⟨S100000x2, .f32⟩) main_call3_v6) (TRef.of (T := ⟨S_, .f32⟩) main_call3_cst_1) (TRef.of (T := ⟨S100000, .f32⟩) main_call3_v7) (fun x v => Host.reduceAdd x v reducesTo_S100000x2_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x2, .f32⟩) main_call3_v10) (broadcastInDim S100000x2 ![0, 1] bcast_S100000x1_S100000x2_0_1),
    TRef.binary (TRef.of (T := ⟨S100000x2, .f32⟩) main_call3_v5) (TRef.of (T := ⟨S100000x2, .f32⟩) main_call3_v10) (TRef.of (T := ⟨S100000x2, .f32⟩) main_v95) subf ]

/-- The line is its ten stretches, in order. -/
theorem ops_split : (ops : List (HloOp τ sig (Elt F))) = segA ++ segB ++ segC ++ segD ++ segE ++ segF ++ segG ++ segH ++ segI ++ segJ := rfl

end Stretches

/-! ## The stretches, each read from arbitrary contents -/

/-- The sources' list. -/
theorem ga1_v3 (V : Valuation τ sig (Elt Ideal)) (e : IVec S2x3200000 32) (h5 : V (Proc.devRef .tc main_arg5) = e) :
    (after segA V (Proc.devRef .tc main_v3) : IVec S3300000 32) = Cert.Gcn.srcIds e := by
  dsimp only [segA]
  after_results
  rw [h5]
  rfl

/-- The targets' list. -/
theorem ga1_v6 (V : Valuation τ sig (Elt Ideal)) (e : IVec S2x3200000 32) (h5 : V (Proc.devRef .tc main_arg5) = e) :
    (after segA V (Proc.devRef .tc main_v6) : IVec S3300000 32) = Cert.Gcn.dstIds e := by
  dsimp only [segA]
  after_results
  rw [h5]
  rfl

/-- Which degrees are positive. -/
theorem ga1_v12 (V : Valuation τ sig (Elt Ideal)) (e : IVec S2x3200000 32) (h5 : V (Proc.devRef .tc main_arg5) = e) :
    (after segA V (Proc.devRef .tc main_v12) : IVec S100000 1) = cmpf (F := Ideal) .ogt (Cert.Gcn.degree e) (broadcastInDim S100000 ![] bcast_S_S100000 (constant S_ .f32 0x00000000#32)) := by
  dsimp only [segA]
  after_results
  rw [h5]
  rfl

/-- The degrees' inverse square roots. -/
theorem ga1_v13 (V : Valuation τ sig (Elt Ideal)) (e : IVec S2x3200000 32) (h5 : V (Proc.devRef .tc main_arg5) = e) :
    (after segA V (Proc.devRef .tc main_v13) : FVec Ideal S100000 .f32) = Host.rsqrt (Cert.Gcn.degree e) := by
  dsimp only [segA]
  after_results
  rw [h5]
  rfl

/-- The constant 0. -/
theorem ga1_cst_2 (V : Valuation τ sig (Elt Ideal)) :
    (after segA V (Proc.devRef .tc main_cst_2) : FVec Ideal S_ .f32) = constant (F := Ideal) S_ .f32 0x00000000#32 := by
  dsimp only [segA]
  after_results

/-- The selection: a node's weight. -/
theorem ga2_v14 (V : Valuation τ sig (Elt Ideal)) (e : IVec S2x3200000 32) (h12 : V (Proc.devRef .tc main_v12) = cmpf (F := Ideal) .ogt (Cert.Gcn.degree e) (broadcastInDim S100000 ![] bcast_S_S100000 (constant S_ .f32 0x00000000#32))) (h13 : V (Proc.devRef .tc main_v13) = Host.rsqrt (Cert.Gcn.degree e)) (hc : V (Proc.devRef .tc main_cst_2) = constant (F := Ideal) S_ .f32 0x00000000#32) :
    (after segB V (Proc.devRef .tc main_v14) : FVec Ideal S100000 .f32) = Cert.Gcn.degInvSqrt e := by
  dsimp only [segB]
  after_results
  simp only [TRef.toBuf, TRef.ofBuf, cast_eq]
  rw [h12, h13, hc]
  rfl

theorem ga2_keep_v3 (V : Valuation τ sig (Elt Ideal)) : after segB V (Proc.devRef .tc main_v3) = V (Proc.devRef .tc main_v3) := by
  unwritten_by segB

theorem ga2_keep_v6 (V : Valuation τ sig (Elt Ideal)) : after segB V (Proc.devRef .tc main_v6) = V (Proc.devRef .tc main_v6) := by
  unwritten_by segB

/-- The edges' coefficients. -/
theorem ga3_v29 (V : Valuation τ sig (Elt Ideal)) (e : IVec S2x3200000 32) (h14 : V (Proc.devRef .tc main_v14) = Cert.Gcn.degInvSqrt e) (h3 : V (Proc.devRef .tc main_v3) = Cert.Gcn.srcIds e) (h6 : V (Proc.devRef .tc main_v6) = Cert.Gcn.dstIds e) :
    (after segC V (Proc.devRef .tc main_v29) : FVec Ideal S3300000 .f32) = Cert.Gcn.normVec e := by
  dsimp only [segC]
  after_results
  rw [h14, h3, h6]
  rfl

theorem ga3_keep_v3 (V : Valuation τ sig (Elt Ideal)) : after segC V (Proc.devRef .tc main_v3) = V (Proc.devRef .tc main_v3) := by
  unwritten_by segC

theorem ga3_keep_v6 (V : Valuation τ sig (Elt Ideal)) : after segC V (Proc.devRef .tc main_v6) = V (Proc.devRef .tc main_v6) := by
  unwritten_by segC

/-- The first product and the first propagation step. -/
theorem sd_v43 (V : Valuation τ sig (Elt Ideal)) (e : IVec S2x3200000 32) (x : FVec Ideal S100000x128 .f32) (w : FVec Ideal S128x16 .f32) (h3 : V (Proc.devRef .tc main_v3) = Cert.Gcn.srcIds e) (h6 : V (Proc.devRef .tc main_v6) = Cert.Gcn.dstIds e) (h29 : V (Proc.devRef .tc main_v29) = Cert.Gcn.normVec e) (h0 : V (Proc.devRef .tc main_arg0) = x) (h1 : V (Proc.devRef .tc main_arg1) = w) :
    (after segD V (Proc.devRef .tc main_v43) : FVec Ideal S100000x16 .f32) = Cert.Gcn.propagate16 e (Cert.Gcn.lin1 x w) := by
  dsimp only [segD]
  after_results
  rw [h3, h6, h29, h0, h1]
  rfl

/-- Bias and rectifier. -/
theorem se_v47 (V : Valuation τ sig (Elt Ideal)) (a : FVec Ideal S100000x16 .f32) (b : FVec Ideal S16 .f32) (h43 : V (Proc.devRef .tc main_v43) = a) (h2 : V (Proc.devRef .tc main_arg2) = b) :
    (after segE V (Proc.devRef .tc main_v47) : FVec Ideal S100000x16 .f32) = Cert.Gcn.rect a b := by
  dsimp only [segE]
  after_results
  simp only [TRef.toBuf, TRef.ofBuf, cast_eq]
  rw [h43, h2]
  rfl

/-- The sources' list. -/
theorem gb1_v51 (V : Valuation τ sig (Elt Ideal)) (e : IVec S2x3200000 32) (h5 : V (Proc.devRef .tc main_arg5) = e) :
    (after segF V (Proc.devRef .tc main_v51) : IVec S3300000 32) = Cert.Gcn.srcIds e := by
  dsimp only [segF]
  after_results
  rw [h5]
  rfl

/-- The targets' list. -/
theorem gb1_v54 (V : Valuation τ sig (Elt Ideal)) (e : IVec S2x3200000 32) (h5 : V (Proc.devRef .tc main_arg5) = e) :
    (after segF V (Proc.devRef .tc main_v54) : IVec S3300000 32) = Cert.Gcn.dstIds e := by
  dsimp only [segF]
  after_results
  rw [h5]
  rfl

/-- Which degrees are positive. -/
theorem gb1_v60 (V : Valuation τ sig (Elt Ideal)) (e : IVec S2x3200000 32) (h5 : V (Proc.devRef .tc main_arg5) = e) :
    (after segF V (Proc.devRef .tc main_v60) : IVec S100000 1) = cmpf (F := Ideal) .ogt (Cert.Gcn.degree e) (broadcastInDim S100000 ![] bcast_S_S100000 (constant S_ .f32 0x00000000#32)) := by
  dsimp only [segF]
  after_results
  rw [h5]
  rfl

/-- The degrees' inverse square roots. -/
theorem gb1_v61 (V : Valuation τ sig (Elt Ideal)) (e : IVec S2x3200000 32) (h5 : V (Proc.devRef .tc main_arg5) = e) :
    (after segF V (Proc.devRef .tc main_v61) : FVec Ideal S100000 .f32) = Host.rsqrt (Cert.Gcn.degree e) := by
  dsimp only [segF]
  after_results
  rw [h5]
  rfl

/-- The constant 0. -/
theorem gb1_cst_12 (V : Valuation τ sig (Elt Ideal)) :
    (after segF V (Proc.devRef .tc main_cst_12) : FVec Ideal S_ .f32) = constant (F := Ideal) S_ .f32 0x00000000#32 := by
  dsimp only [segF]
  after_results

theorem gb1_keep_v47 (V : Valuation τ sig (Elt Ideal)) : after segF V (Proc.devRef .tc main_v47) = V (Proc.devRef .tc main_v47) := by
  unwritten_by segF

/-- The selection: a node's weight. -/
theorem gb2_v62 (V : Valuation τ sig (Elt Ideal)) (e : IVec S2x3200000 32) (h12 : V (Proc.devRef .tc main_v60) = cmpf (F := Ideal) .ogt (Cert.Gcn.degree e) (broadcastInDim S100000 ![] bcast_S_S100000 (constant S_ .f32 0x00000000#32))) (h13 : V (Proc.devRef .tc main_v61) = Host.rsqrt (Cert.Gcn.degree e)) (hc : V (Proc.devRef .tc main_cst_12) = constant (F := Ideal) S_ .f32 0x00000000#32) :
    (after segG V (Proc.devRef .tc main_v62) : FVec Ideal S100000 .f32) = Cert.Gcn.degInvSqrt e := by
  dsimp only [segG]
  after_results
  simp only [TRef.toBuf, TRef.ofBuf, cast_eq]
  rw [h12, h13, hc]
  rfl

theorem gb2_keep_v51 (V : Valuation τ sig (Elt Ideal)) : after segG V (Proc.devRef .tc main_v51) = V (Proc.devRef .tc main_v51) := by
  unwritten_by segG

theorem gb2_keep_v54 (V : Valuation τ sig (Elt Ideal)) : after segG V (Proc.devRef .tc main_v54) = V (Proc.devRef .tc main_v54) := by
  unwritten_by segG

theorem gb2_keep_v47 (V : Valuation τ sig (Elt Ideal)) : after segG V (Proc.devRef .tc main_v47) = V (Proc.devRef .tc main_v47) := by
  unwritten_by segG

/-- The edges' coefficients. -/
theorem gb3_v77 (V : Valuation τ sig (Elt Ideal)) (e : IVec S2x3200000 32) (h14 : V (Proc.devRef .tc main_v62) = Cert.Gcn.degInvSqrt e) (h3 : V (Proc.devRef .tc main_v51) = Cert.Gcn.srcIds e) (h6 : V (Proc.devRef .tc main_v54) = Cert.Gcn.dstIds e) :
    (after segH V (Proc.devRef .tc main_v77) : FVec Ideal S3300000 .f32) = Cert.Gcn.normVec e := by
  dsimp only [segH]
  after_results
  rw [h14, h3, h6]
  rfl

theorem gb3_keep_v51 (V : Valuation τ sig (Elt Ideal)) : after segH V (Proc.devRef .tc main_v51) = V (Proc.devRef .tc main_v51) := by
  unwritten_by segH

theorem gb3_keep_v54 (V : Valuation τ sig (Elt Ideal)) : after segH V (Proc.devRef .tc main_v54) = V (Proc.devRef .tc main_v54) := by
  unwritten_by segH

theorem gb3_keep_v47 (V : Valuation τ sig (Elt Ideal)) : after segH V (Proc.devRef .tc main_v47) = V (Proc.devRef .tc main_v47) := by
  unwritten_by segH

/-- The second product and the second propagation step. -/
theorem si_v91 (V : Valuation τ sig (Elt Ideal)) (e : IVec S2x3200000 32) (a : FVec Ideal S100000x16 .f32) (b : FVec Ideal S16 .f32) (w : FVec Ideal S16x2 .f32) (h3 : V (Proc.devRef .tc main_v51) = Cert.Gcn.srcIds e) (h6 : V (Proc.devRef .tc main_v54) = Cert.Gcn.dstIds e) (h29 : V (Proc.devRef .tc main_v77) = Cert.Gcn.normVec e) (h47 : V (Proc.devRef .tc main_v47) = Cert.Gcn.rect a b) (hw : V (Proc.devRef .tc main_arg3) = w) :
    (after segI V (Proc.devRef .tc main_v91) : FVec Ideal S100000x2 .f32) = Cert.Gcn.propagate2 e (Cert.Gcn.hidden a b w) := by
  dsimp only [segI]
  after_results
  rw [h3, h6, h29, h47, hw]
  rfl

/-- The second bias and the log-softmax. -/
theorem sj_v95 (V : Valuation τ sig (Elt Ideal)) (a : FVec Ideal S100000x2 .f32) (b : FVec Ideal S2 .f32) (h91 : V (Proc.devRef .tc main_v91) = a) (h4 : V (Proc.devRef .tc main_arg4) = b) :
    (after segJ V (Proc.devRef .tc main_v95) : FVec Ideal S100000x2 .f32) = Cert.Gcn.head (Cert.Gcn.logits a b) := by
  dsimp only [segJ]
  after_results
  simp only [TRef.toBuf, TRef.ofBuf, cast_eq]
  rw [h91, h4]
  rfl

variable (m : (ℓ : Loc nD τ sig) → Buf (Elt Ideal) ℓ)

/-! ## The contents at the boundaries -/

/-- The launch contents of core `c`. -/
abbrev R0 (c : Dev nD) : Valuation τ sig (Elt Ideal) := launchContents m c
/-- The contents after the first 1 stretch. -/
abbrev R1 (c : Dev nD) : Valuation τ sig (Elt Ideal) := after (segA (F := Ideal)) (R0 m c)
/-- The contents after the first 2 stretches. -/
abbrev R2 (c : Dev nD) : Valuation τ sig (Elt Ideal) := after (segB (F := Ideal)) (R1 m c)
/-- The contents after the first 3 stretches. -/
abbrev R3 (c : Dev nD) : Valuation τ sig (Elt Ideal) := after (segC (F := Ideal)) (R2 m c)
/-- The contents after the first 4 stretches. -/
abbrev R4 (c : Dev nD) : Valuation τ sig (Elt Ideal) := after (segD (F := Ideal)) (R3 m c)
/-- The contents after the first 5 stretches. -/
abbrev R5 (c : Dev nD) : Valuation τ sig (Elt Ideal) := after (segE (F := Ideal)) (R4 m c)
/-- The contents after the first 6 stretches. -/
abbrev R6 (c : Dev nD) : Valuation τ sig (Elt Ideal) := after (segF (F := Ideal)) (R5 m c)
/-- The contents after the first 7 stretches. -/
abbrev R7 (c : Dev nD) : Valuation τ sig (Elt Ideal) := after (segG (F := Ideal)) (R6 m c)
/-- The contents after the first 8 stretches. -/
abbrev R8 (c : Dev nD) : Valuation τ sig (Elt Ideal) := after (segH (F := Ideal)) (R7 m c)
/-- The contents after the first 9 stretches. -/
abbrev R9 (c : Dev nD) : Valuation τ sig (Elt Ideal) := after (segI (F := Ideal)) (R8 m c)
/-- The contents after the first 10 stretches. -/
abbrev R10 (c : Dev nD) : Valuation τ sig (Elt Ideal) := after (segJ (F := Ideal)) (R9 m c)

/-- The fold over the whole line is the fold over the stretches. -/
theorem after_ops (c : Dev nD) : after (ops (F := Ideal)) (launchContents m c) = R10 m c := by
  rw [ops_split (F := Ideal)]
  simp only [after_append]

/-! ## The arguments, where a stretch reads them -/

theorem R0_arg5 (c : Dev nD) : R0 m c (Proc.devRef .tc main_arg5) = (m ((c.tc : Thread nD τ).loc main_arg5)) := rfl
theorem R3_arg0 (c : Dev nD) : R3 m c (Proc.devRef .tc main_arg0) = (m ((c.tc : Thread nD τ).loc main_arg0)) := by
  dsimp only [R1, R2, R3, R0, segA, segB, segC]
  after_results_simp <;> rfl
theorem R3_arg1 (c : Dev nD) : R3 m c (Proc.devRef .tc main_arg1) = (m ((c.tc : Thread nD τ).loc main_arg1)) := by
  dsimp only [R1, R2, R3, R0, segA, segB, segC]
  after_results_simp <;> rfl
theorem R4_arg2 (c : Dev nD) : R4 m c (Proc.devRef .tc main_arg2) = (m ((c.tc : Thread nD τ).loc main_arg2)) := by
  dsimp only [R1, R2, R3, R4, R0, segA, segB, segC, segD]
  after_results_simp <;> rfl
theorem R5_arg5 (c : Dev nD) : R5 m c (Proc.devRef .tc main_arg5) = (m ((c.tc : Thread nD τ).loc main_arg5)) := by
  dsimp only [R1, R2, R3, R4, R5, R0, segA, segB, segC, segD, segE]
  after_results_simp <;> rfl
theorem R8_arg3 (c : Dev nD) : R8 m c (Proc.devRef .tc main_arg3) = (m ((c.tc : Thread nD τ).loc main_arg3)) := by
  dsimp only [R1, R2, R3, R4, R5, R6, R7, R8, R0, segA, segB, segC, segD, segE, segF, segG, segH]
  after_results_simp <;> rfl
theorem R9_arg4 (c : Dev nD) : R9 m c (Proc.devRef .tc main_arg4) = (m ((c.tc : Thread nD τ).loc main_arg4)) := by
  dsimp only [R1, R2, R3, R4, R5, R6, R7, R8, R9, R0, segA, segB, segC, segD, segE, segF, segG, segH, segI]
  after_results_simp <;> rfl

/-! ## The boundaries, first to last -/

theorem R1_v3 (c : Dev nD) : (R1 m c (Proc.devRef .tc main_v3) : IVec S3300000 32) = Cert.Gcn.srcIds (m ((c.tc : Thread nD τ).loc main_arg5)) := ga1_v3 (R0 m c) _ rfl
theorem R1_v6 (c : Dev nD) : (R1 m c (Proc.devRef .tc main_v6) : IVec S3300000 32) = Cert.Gcn.dstIds (m ((c.tc : Thread nD τ).loc main_arg5)) := ga1_v6 (R0 m c) _ rfl
theorem R2_v14 (c : Dev nD) : (R2 m c (Proc.devRef .tc main_v14) : FVec Ideal S100000 .f32) = Cert.Gcn.degInvSqrt (m ((c.tc : Thread nD τ).loc main_arg5)) :=
  ga2_v14 (R1 m c) _ (ga1_v12 (R0 m c) _ rfl) (ga1_v13 (R0 m c) _ rfl) (ga1_cst_2 (R0 m c))
theorem R2_v3 (c : Dev nD) : (R2 m c (Proc.devRef .tc main_v3) : IVec S3300000 32) = Cert.Gcn.srcIds (m ((c.tc : Thread nD τ).loc main_arg5)) := (ga2_keep_v3 (R1 m c)).trans (R1_v3 m c)
theorem R2_v6 (c : Dev nD) : (R2 m c (Proc.devRef .tc main_v6) : IVec S3300000 32) = Cert.Gcn.dstIds (m ((c.tc : Thread nD τ).loc main_arg5)) := (ga2_keep_v6 (R1 m c)).trans (R1_v6 m c)
theorem R3_v29 (c : Dev nD) : (R3 m c (Proc.devRef .tc main_v29) : FVec Ideal S3300000 .f32) = Cert.Gcn.normVec (m ((c.tc : Thread nD τ).loc main_arg5)) :=
  ga3_v29 (R2 m c) _ (R2_v14 m c) (R2_v3 m c) (R2_v6 m c)
theorem R3_v3 (c : Dev nD) : (R3 m c (Proc.devRef .tc main_v3) : IVec S3300000 32) = Cert.Gcn.srcIds (m ((c.tc : Thread nD τ).loc main_arg5)) := (ga3_keep_v3 (R2 m c)).trans (R2_v3 m c)
theorem R3_v6 (c : Dev nD) : (R3 m c (Proc.devRef .tc main_v6) : IVec S3300000 32) = Cert.Gcn.dstIds (m ((c.tc : Thread nD τ).loc main_arg5)) := (ga3_keep_v6 (R2 m c)).trans (R2_v6 m c)
theorem R4_v43 (c : Dev nD) : (R4 m c (Proc.devRef .tc main_v43) : FVec Ideal S100000x16 .f32) = Cert.Gcn.propagate16 (m ((c.tc : Thread nD τ).loc main_arg5)) (Cert.Gcn.lin1 (m ((c.tc : Thread nD τ).loc main_arg0)) (m ((c.tc : Thread nD τ).loc main_arg1))) :=
  sd_v43 (R3 m c) _ _ _ (R3_v3 m c) (R3_v6 m c) (R3_v29 m c) (R3_arg0 m c) (R3_arg1 m c)
theorem R5_v47 (c : Dev nD) : (R5 m c (Proc.devRef .tc main_v47) : FVec Ideal S100000x16 .f32) = Cert.Gcn.rect (Cert.Gcn.propagate16 (m ((c.tc : Thread nD τ).loc main_arg5)) (Cert.Gcn.lin1 (m ((c.tc : Thread nD τ).loc main_arg0)) (m ((c.tc : Thread nD τ).loc main_arg1)))) (m ((c.tc : Thread nD τ).loc main_arg2)) :=
  se_v47 (R4 m c) _ _ (R4_v43 m c) (R4_arg2 m c)
theorem R6_v51 (c : Dev nD) : (R6 m c (Proc.devRef .tc main_v51) : IVec S3300000 32) = Cert.Gcn.srcIds (m ((c.tc : Thread nD τ).loc main_arg5)) := gb1_v51 (R5 m c) _ (R5_arg5 m c)
theorem R6_v54 (c : Dev nD) : (R6 m c (Proc.devRef .tc main_v54) : IVec S3300000 32) = Cert.Gcn.dstIds (m ((c.tc : Thread nD τ).loc main_arg5)) := gb1_v54 (R5 m c) _ (R5_arg5 m c)
theorem R6_v47 (c : Dev nD) : (R6 m c (Proc.devRef .tc main_v47) : FVec Ideal S100000x16 .f32) = Cert.Gcn.rect (Cert.Gcn.propagate16 (m ((c.tc : Thread nD τ).loc main_arg5)) (Cert.Gcn.lin1 (m ((c.tc : Thread nD τ).loc main_arg0)) (m ((c.tc : Thread nD τ).loc main_arg1)))) (m ((c.tc : Thread nD τ).loc main_arg2)) := (gb1_keep_v47 (R5 m c)).trans (R5_v47 m c)
theorem R7_v62 (c : Dev nD) : (R7 m c (Proc.devRef .tc main_v62) : FVec Ideal S100000 .f32) = Cert.Gcn.degInvSqrt (m ((c.tc : Thread nD τ).loc main_arg5)) :=
  gb2_v62 (R6 m c) _ (gb1_v60 (R5 m c) _ (R5_arg5 m c)) (gb1_v61 (R5 m c) _ (R5_arg5 m c)) (gb1_cst_12 (R5 m c))
theorem R7_v51 (c : Dev nD) : (R7 m c (Proc.devRef .tc main_v51) : IVec S3300000 32) = Cert.Gcn.srcIds (m ((c.tc : Thread nD τ).loc main_arg5)) := (gb2_keep_v51 (R6 m c)).trans (R6_v51 m c)
theorem R7_v54 (c : Dev nD) : (R7 m c (Proc.devRef .tc main_v54) : IVec S3300000 32) = Cert.Gcn.dstIds (m ((c.tc : Thread nD τ).loc main_arg5)) := (gb2_keep_v54 (R6 m c)).trans (R6_v54 m c)
theorem R7_v47 (c : Dev nD) : (R7 m c (Proc.devRef .tc main_v47) : FVec Ideal S100000x16 .f32) = Cert.Gcn.rect (Cert.Gcn.propagate16 (m ((c.tc : Thread nD τ).loc main_arg5)) (Cert.Gcn.lin1 (m ((c.tc : Thread nD τ).loc main_arg0)) (m ((c.tc : Thread nD τ).loc main_arg1)))) (m ((c.tc : Thread nD τ).loc main_arg2)) := (gb2_keep_v47 (R6 m c)).trans (R6_v47 m c)
theorem R8_v77 (c : Dev nD) : (R8 m c (Proc.devRef .tc main_v77) : FVec Ideal S3300000 .f32) = Cert.Gcn.normVec (m ((c.tc : Thread nD τ).loc main_arg5)) :=
  gb3_v77 (R7 m c) _ (R7_v62 m c) (R7_v51 m c) (R7_v54 m c)
theorem R8_v51 (c : Dev nD) : (R8 m c (Proc.devRef .tc main_v51) : IVec S3300000 32) = Cert.Gcn.srcIds (m ((c.tc : Thread nD τ).loc main_arg5)) := (gb3_keep_v51 (R7 m c)).trans (R7_v51 m c)
theorem R8_v54 (c : Dev nD) : (R8 m c (Proc.devRef .tc main_v54) : IVec S3300000 32) = Cert.Gcn.dstIds (m ((c.tc : Thread nD τ).loc main_arg5)) := (gb3_keep_v54 (R7 m c)).trans (R7_v54 m c)
theorem R8_v47 (c : Dev nD) : (R8 m c (Proc.devRef .tc main_v47) : FVec Ideal S100000x16 .f32) = Cert.Gcn.rect (Cert.Gcn.propagate16 (m ((c.tc : Thread nD τ).loc main_arg5)) (Cert.Gcn.lin1 (m ((c.tc : Thread nD τ).loc main_arg0)) (m ((c.tc : Thread nD τ).loc main_arg1)))) (m ((c.tc : Thread nD τ).loc main_arg2)) := (gb3_keep_v47 (R7 m c)).trans (R7_v47 m c)
theorem R9_v91 (c : Dev nD) : (R9 m c (Proc.devRef .tc main_v91) : FVec Ideal S100000x2 .f32) = Cert.Gcn.propagate2 (m ((c.tc : Thread nD τ).loc main_arg5)) (Cert.Gcn.hidden (Cert.Gcn.propagate16 (m ((c.tc : Thread nD τ).loc main_arg5)) (Cert.Gcn.lin1 (m ((c.tc : Thread nD τ).loc main_arg0)) (m ((c.tc : Thread nD τ).loc main_arg1)))) (m ((c.tc : Thread nD τ).loc main_arg2)) (m ((c.tc : Thread nD τ).loc main_arg3))) :=
  si_v91 (R8 m c) _ _ _ _ (R8_v51 m c) (R8_v54 m c) (R8_v77 m c) (R8_v47 m c) (R8_arg3 m c)
theorem R10_v95 (c : Dev nD) : (R10 m c (Proc.devRef .tc main_v95) : FVec Ideal S100000x2 .f32) = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  sj_v95 (R9 m c) _ _ (R9_v91 m c) (R9_arg4 m c)

/-- The fold of the operations, read at the result buffer, is the network of the argument arrays. -/
theorem value (c : Dev nD) :
    (after (ops (F := Ideal)) (launchContents m c) (Proc.devRef .tc main_v95) : FVec Ideal S100000x2 .f32) = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops]
  exact R10_v95 m c

/-- Every weakly fair execution of the reference terminates with the result buffer at the network of the arguments and
    the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v95) = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.lean ====
/-
  A two-layer graph convolution network on 100000 nodes (128 → 16 → 2 features, 3200000 edges and a self-loop per node),
  ending in a row-wise log-softmax: a kernel program of three TensorCore regions against its plain reference, equal over
  the extended reals.

  Both programs compute, from the edge array alone, the edges' coefficients (inverse square roots of the target degrees,
  multiplied over an edge's two ends), and alternate a propagation step — gather the source rows, scale them edge by edge,
  scatter-add them at the targets — with a dense stage that acts on every node's row alone: `x · W1`; then
  `max (· + b1) 0 · W2`; then the log-softmax of `· + b2`. The kernel program runs the three dense stages as regions that
  tile the nodes in ten blocks of 10000 rows and leaves the propagation steps to host operations; the reference is host
  operations throughout. A dense stage acts row by row, so running it block by block over a tiling of the rows gives the
  stage of the whole array; a matrix product into a zero accumulator is the host's product, entry by entry a sum of
  products; a change of float format is the identity; the reference's one extra `max` with −∞ changes nothing. The
  propagation steps are the same operations in both programs and are applied to equal arrays, so they are never opened.
  No law used here needs finiteness: the precondition is not opened.

    * `Layers`        — the network's stages as whole-array functions, the dense ones read at an entry;
    * `KernelBlocks`  — what each region's body leaves in its block, at an entry;
    * `KernelArrays`  — from the ten blocks to the region's whole output array;
    * `KernelRun`     — the kernel program's run with its result buffer named;
    * `KernelValue`   — the result buffer's contents, boundary by boundary, as the network of the arguments;
    * `RefRunPatched`, `RefRun` — the reference as a list of operations, and its run read as the same network.
-/
import proofs.«171294_j37108517437448_1_alg».proof.Defs
import proofs.«171294_j37108517437448_1_alg».proof.Proof.Gen.Kernel
import proofs.«171294_j37108517437448_1_alg».proof.Proof.Gen.Kernel.Skeleton
import proofs.«171294_j37108517437448_1_alg».proof.Proof.Gen.Kernel.Launch
import proofs.«171294_j37108517437448_1_alg».proof.Proof.Gen.Kernel.Points
import proofs.«171294_j37108517437448_1_alg».proof.Proof.Gen.Kernel.Frame
import proofs.«171294_j37108517437448_1_alg».proof.Proof.Gen.KernelIdeal
import proofs.«171294_j37108517437448_1_alg».proof.Proof.Gen.KernelIdeal.Skeleton
import proofs.«171294_j37108517437448_1_alg».proof.Proof.Gen.KernelIdeal.Launch
import proofs.«171294_j37108517437448_1_alg».proof.Proof.Gen.KernelIdeal.Points
import proofs.«171294_j37108517437448_1_alg».proof.Proof.Gen.KernelIdeal.Frame
import proofs.«171294_j37108517437448_1_alg».proof.Proof.Gen.ReferenceIdeal
import proofs.«171294_j37108517437448_1_alg».proof.Proof.Gen.Pre_finite_inputs
import proofs.«171294_j37108517437448_1_alg».proof.Proof.KernelRun
import proofs.«171294_j37108517437448_1_alg».proof.Proof.KernelValue
import proofs.«171294_j37108517437448_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The ideal pass rewrote nothing. -/
theorem preserves : Cert.preserves_Kernel_KernelIdeal := trivial

/-- From memories that agree on the arguments both programs end with the network of the arguments in their result. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.RefRun.run m' ρ')
    obtain ⟨h0, h1, h2, h3, h4, h5⟩ := hagree c
    rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
